-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x6400000 : Shape := ⟨2, ![2, 6400000]⟩
abbrev S6400000 : Shape := ⟨1, ![6400000]⟩
abbrev S5 : Shape := ⟨1, ![5]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S6400000 : S_.BroadcastsInDim S6400000 (![] : Fin 0 → Fin S6400000.rank)
  reducesTo_S6400000_S_d0 : S6400000.ReducesTo [0] S_
  bcast_S_S5 : S_.BroadcastsInDim S5 (![] : Fin 0 → Fin S5.rank)
  reducesTo_S5_S_d0 : S5.ReducesTo [0] S_

variable [Facts]

def fn {F : FTy → Type} [FloatOps F] (main_arg0 : FVec F S100000x1 .f32) (main_arg1 : IVec S2x6400000 32) (main_arg2 : FVec F S6400000 .f32) (main_arg3 : FVec F S5 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S6400000 .f32 := Host.absf main_arg2
  let main_cst_0 : FVec F S_ .f32 := constant S_ .f32 0x7F800000#32
  let main_v5 : FVec F S6400000 .f32 := broadcastInDim S6400000 ![] bcast_S_S6400000 main_cst_0
  let main_v6 : IVec S6400000 1 := cmpf .olt main_v4 main_v5
  let main_c_1 : IVec S_ 1 := constantI S_ 1 1#1
  let main_v7 : IVec S_ 1 := (fun x v => Host.reduce IntOp.andi x v reducesTo_S6400000_S_d0 h_S_) main_v6 main_c_1
  let main_v8 : IVec S_ 1 := andi main_v3 main_v7
  let main_v9 : FVec F S5 .f32 := Host.absf main_arg3
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  main_v13
-- ==== Kernel.lean ====
abbrev S100000x1 : Shape := ⟨2, ![100000, 1]⟩
abbrev S2x6400000 : Shape := ⟨2, ![2, 6400000]⟩
abbrev S6400000 : Shape := ⟨1, ![6400000]⟩
abbrev S5 : Shape := ⟨1, ![5]⟩
abbrev S1x6400000 : Shape := ⟨2, ![1, 6400000]⟩
abbrev S1 : Shape := ⟨1, ![1]⟩
abbrev S_ : Shape := ⟨0, ![]⟩
abbrev S100000 : Shape := ⟨1, ![100000]⟩
abbrev S6400000x1 : Shape := ⟨2, ![6400000, 1]⟩
abbrev S50000x128 : Shape := ⟨2, ![50000, 128]⟩
abbrev S10000x128 : Shape := ⟨2, ![10000, 128]⟩

abbrev nBuf : Space → Nat
  | .hbm => 108
  | .vmem => 24
  | .smem => 0
  | _ => 0

abbrev bufTy : (tb : Table) → Fin (tcTables nBuf tb) → BufTy
  | .hbm, ⟨0, _⟩ => ⟨S100000x1, .f32⟩
  | .hbm, ⟨1, _⟩ => ⟨S2x6400000, .i32⟩
  | .hbm, ⟨2, _⟩ => ⟨S6400000, .f32⟩
  | .hbm, ⟨3, _⟩ => ⟨S5, .f32⟩
  | .hbm, ⟨4, _⟩ => ⟨S1x6400000, .i32⟩
  | .hbm, ⟨5, _⟩ => ⟨S6400000, .i32⟩
  | .hbm, ⟨6, _⟩ => ⟨S1x6400000, .i32⟩
  | .hbm, ⟨7, _⟩ => ⟨S6400000, .i32⟩
  | .hbm, ⟨8, _⟩ => ⟨S1, .f32⟩
  | .hbm, ⟨9, _⟩ => ⟨S_, .f32⟩
  | .hbm, ⟨10, _⟩ => ⟨S100000x1, .f32⟩
  | .hbm, ⟨11, _⟩ => ⟨S100000x1, .f32⟩
  | .hbm, ⟨12, _⟩ => ⟨S100000, .f32⟩
  | .hbm, ⟨13, _⟩ => ⟨S_, .i32⟩
  | .hbm, ⟨14, _⟩ => ⟨S6400000, .i32⟩
  | .hbm, ⟨15, _⟩ => ⟨S6400000, .i1⟩
  | .hbm, ⟨16, _⟩ => ⟨S_, .i32⟩
  | .hbm, ⟨17, _⟩ => ⟨S6400000, .i32⟩
  | .hbm, ⟨18, _⟩ => ⟨S6400000, .i32⟩
  | .hbm, ⟨19, _⟩ => ⟨S6400000, .i32⟩
  | .hbm, ⟨20, _⟩ => ⟨S6400000x1, .i32⟩
  | .hbm, ⟨21, _⟩ => ⟨S6400000, .f32⟩
  | .hbm, ⟨22, _⟩ => ⟨S50000x128, .f32⟩
  | .hbm, ⟨23, _⟩ => ⟨S50000x128, .f32⟩
  | .hbm, ⟨24, _⟩ => ⟨S50000x128, .f32⟩
  | .hbm, ⟨25, _⟩ => ⟨S6400000, .f32⟩
  | .hbm, ⟨26, _⟩ => ⟨S_, .f32⟩
  | .hbm, ⟨27, _⟩ => ⟨S100000, .f32⟩
  | .hbm, ⟨28, _⟩ => ⟨S6400000x1, .i32⟩
  | .hbm, ⟨29, _⟩ => ⟨S100000, .f32⟩
  | .hbm, ⟨30, _⟩ => ⟨S100000x1, .f32⟩
  | .hbm, ⟨31, _⟩ => ⟨S1, .f32⟩
  | .hbm, ⟨32, _⟩ => ⟨S_, .f32⟩
  | .hbm, ⟨33, _⟩ => ⟨S100000x1, .f32⟩
  | .hbm, ⟨34, _⟩ => ⟨S100000x1, .f32⟩
  | .hbm, ⟨35, _⟩ => ⟨S100000x1, .f32⟩
  | .hbm, ⟨36, _⟩ => ⟨S100000, .f32⟩
  | .hbm, ⟨37, _⟩ => ⟨S_, .i32⟩
  | .hbm, ⟨38, _⟩ => ⟨S6400000, .i32⟩
  | .hbm, ⟨39, _⟩ => ⟨S6400000, .i1⟩
  | .hbm, ⟨40, _⟩ => ⟨S_, .i32⟩
  | .hbm, ⟨41, _⟩ => ⟨S6400000, .i32⟩
  | .hbm, ⟨42, _⟩ => ⟨S6400000, .i32⟩
  | .hbm, ⟨43, _⟩ => ⟨S6400000, .i32⟩
  | .hbm, ⟨44, _⟩ => ⟨S6400000x1, .i32⟩
  | .hbm, ⟨45, _⟩ => ⟨S6400000, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S6400000, .f32⟩
  | .hbm, ⟨50, _⟩ => ⟨S_, .f32⟩
  | .hbm, ⟨51, _⟩ => ⟨S100000, .f32⟩
  | .hbm, ⟨52, _⟩ => ⟨S6400000x1, .i32⟩
  | .hbm, ⟨53, _⟩ => ⟨S100000, .f32⟩
  | .hbm, ⟨54, _⟩ => ⟨S100000x1, .f32⟩
  | .hbm, ⟨55, _⟩ => ⟨S1, .f32⟩
  | .hbm, ⟨56, _⟩ => ⟨S_, .f32⟩
  | .hbm, ⟨57, _⟩ => ⟨S100000x1, .f32⟩
  | .hbm, ⟨58, _⟩ => ⟨S100000x1, .f32⟩
  | .hbm, ⟨59, _⟩ => ⟨S100000x1, .f32⟩
  | .hbm, ⟨60, _⟩ => ⟨S100000, .f32⟩
  | .hbm, ⟨61, _⟩ => ⟨S_, .i32⟩
  | .hbm, ⟨62, _⟩ => ⟨S6400000, .i32⟩
  | .hbm, ⟨63, _⟩ => ⟨S6400000, .i1⟩
  | .hbm, ⟨64, _⟩ => ⟨S_, .i32⟩
  | .hbm, ⟨65, _⟩ => ⟨S6400000, .i32⟩
  | .hbm, ⟨66, _⟩ => ⟨S6400000, .i32⟩
  | .hbm, ⟨67, _⟩ => ⟨S6400000, .i32⟩
  | .hbm, ⟨68, _⟩ => ⟨S6400000x1, .i32⟩
  | .hbm, ⟨69, _⟩ => ⟨S6400000, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S6400000, .f32⟩
  | .hbm, ⟨74, _⟩ => ⟨S_, .f32⟩
  | .hbm, ⟨75, _⟩ => ⟨S100000, .f32⟩
  | .hbm, ⟨76, _⟩ => ⟨S6400000x1, .i32⟩
  | .hbm, ⟨77, _⟩ => ⟨S100000, .f32⟩
  | .hbm, ⟨78, _⟩ => ⟨S100000x1, .f32⟩
  | .hbm, ⟨79, _⟩ => ⟨S1, .f32⟩
  | .hbm, ⟨80, _⟩ => ⟨S_, .f32⟩
  | .hbm, ⟨81, _⟩ => ⟨S100000x1, .f32⟩
  | .hbm, ⟨82, _⟩ => ⟨S100000x1, .f32⟩
  | .hbm, ⟨83, _⟩ => ⟨S100000x1, .f32⟩
  | .hbm, ⟨84, _⟩ => ⟨S100000, .f32⟩
  | .hbm, ⟨85, _⟩ => ⟨S_, .i32⟩
  | .hbm, ⟨86, _⟩ => ⟨S6400000, .i32⟩
  | .hbm, ⟨87, _⟩ => ⟨S6400000, .i1⟩
  | .hbm, ⟨88, _⟩ => ⟨S_, .i32⟩
  | .hbm, ⟨89, _⟩ => ⟨S6400000, .i32⟩
  | .hbm, ⟨90, _⟩ => ⟨S6400000, .i32⟩
  | .hbm, ⟨91, _⟩ => ⟨S6400000, .i32⟩
  | .hbm, ⟨92, _⟩ => ⟨S6400000x1, .i32⟩
  | .hbm, ⟨93, _⟩ => ⟨S6400000, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S6400000, .f32⟩
  | .hbm, ⟨98, _⟩ => ⟨S_, .f32⟩
  | .hbm, ⟨99, _⟩ => ⟨S100000, .f32⟩
  | .hbm, ⟨100, _⟩ => ⟨S6400000x1, .i32⟩
  | .hbm, ⟨101, _⟩ => ⟨S100000, .f32⟩
  | .hbm, ⟨102, _⟩ => ⟨S100000x1, .f32⟩
  | .hbm, ⟨103, _⟩ => ⟨S1, .f32⟩
  | .hbm, ⟨104, _⟩ => ⟨S_, .f32⟩
  | .hbm, ⟨105, _⟩ => ⟨S100000x1, .f32⟩
  | .hbm, ⟨106, _⟩ => ⟨S100000x1, .f32⟩
  | .hbm, ⟨107, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_1 : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_c_4 : Ref sig .tc := ⟨.hbm, 61, rfl⟩
abbrev main_v51 : Ref sig .tc := ⟨.hbm, 62, rfl⟩
abbrev main_v52 : Ref sig .tc := ⟨.hbm, 63, rfl⟩
abbrev main_c_5 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_6 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_c_7 : Ref sig .tc := ⟨.hbm, 85, rfl⟩
abbrev main_v72 : Ref sig .tc := ⟨.hbm, 86, rfl⟩
abbrev main_v73 : Ref sig .tc := ⟨.hbm, 87, rfl⟩
abbrev main_c_8 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_cst_9 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  slices_S5_S1_0 : S5.Slices ![0] S1
  shapeCasts_S1_S_ : S1.ShapeCasts S_
  bcast_S_S100000x1 : S_.BroadcastsInDim S100000x1 (![] : Fin 0 → Fin S100000x1.rank)
  shapeCasts_S100000x1_S100000 : S100000x1.ShapeCasts S100000
  bcast_S_S6400000 : S_.BroadcastsInDim S6400000 (![] : Fin 0 → Fin S6400000.rank)
  bcast_S6400000_S6400000x1_0 : S6400000.BroadcastsInDim S6400000x1 (![0] : Fin 1 → Fin S6400000x1.rank)
  shapeCasts_S6400000_S50000x128 : S6400000.ShapeCasts S50000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S50000x128_S6400000 : S50000x128.ShapeCasts S6400000
  bcast_S_S100000 : S_.BroadcastsInDim S100000 (![] : Fin 0 → Fin S100000.rank)
  bcast_S100000_S100000x1_0 : S100000.BroadcastsInDim S100000x1 (![0] : Fin 1 → Fin S100000x1.rank)
  slices_S5_S1_1 : S5.Slices ![1] S1
  slices_S5_S1_2 : S5.Slices ![2] S1
  slices_S5_S1_3 : S5.Slices ![3] S1
  slices_S5_S1_4 : S5.Slices ![4] S1
  gather_S100000_S6400000x1_S6400000_n_0_n_n_0_1_1_wf : GatherDims.WF S100000 S6400000x1 S6400000 [] [0] [] [0] [] 1 ![1]
  scatter_S100000_S6400000x1_S6400000_n_0_0_1_wf : ScatterDims.WF S100000 S6400000x1 S6400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .f32 = 32 ∨ (Rect.block (s := S50000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S50000x128.size a
  hwx2_1 : ∀ i : grid2.Coords, EltTy.bits .f32 = 32 ∨ (Rect.block (s := S50000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S50000x128.size a
  hwx3_1 : ∀ i : grid3.Coords, EltTy.bits .f32 = 32 ∨ (Rect.block (s := S50000x128) S10000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

abbrev win0_0 : Pipeline.Window sig grid0 :=
  Pipeline.Window.ofSpec (Memref.whole main_v16) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v58) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v81) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x1 : Shape := ⟨2, ![100000, 1]⟩
abbrev S2x6400000 : Shape := ⟨2, ![2, 6400000]⟩
abbrev S6400000 : Shape := ⟨1, ![6400000]⟩
abbrev S5 : Shape := ⟨1, ![5]⟩
abbrev S1x6400000 : Shape := ⟨2, ![1, 6400000]⟩
abbrev S6400000x1 : Shape := ⟨2, ![6400000, 1]⟩
abbrev S1 : Shape := ⟨1, ![1]⟩
abbrev S_ : Shape := ⟨0, ![]⟩

abbrev nBuf : Space → Nat
  | .hbm => 89
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x6400000, .i32⟩
  | .hbm, ⟨2, _⟩ => ⟨S6400000, .f32⟩
  | .hbm, ⟨3, _⟩ => ⟨S5, .f32⟩
  | .hbm, ⟨4, _⟩ => ⟨S1x6400000, .i32⟩
  | .hbm, ⟨5, _⟩ => ⟨S6400000, .i32⟩
  | .hbm, ⟨6, _⟩ => ⟨S1x6400000, .i32⟩
  | .hbm, ⟨7, _⟩ => ⟨S6400000, .i32⟩
  | .hbm, ⟨8, _⟩ => ⟨S6400000x1, .f32⟩
  | .hbm, ⟨9, _⟩ => ⟨S1, .f32⟩
  | .hbm, ⟨10, _⟩ => ⟨S_, .f32⟩
  | .hbm, ⟨11, _⟩ => ⟨S100000x1, .f32⟩
  | .hbm, ⟨12, _⟩ => ⟨S100000x1, .f32⟩
  | .hbm, ⟨13, _⟩ => ⟨S_, .i32⟩
  | .hbm, ⟨14, _⟩ => ⟨S6400000, .i32⟩
  | .hbm, ⟨15, _⟩ => ⟨S6400000, .i1⟩
  | .hbm, ⟨16, _⟩ => ⟨S_, .i32⟩
  | .hbm, ⟨17, _⟩ => ⟨S6400000, .i32⟩
  | .hbm, ⟨18, _⟩ => ⟨S6400000, .i32⟩
  | .hbm, ⟨19, _⟩ => ⟨S6400000, .i32⟩
  | .hbm, ⟨20, _⟩ => ⟨S6400000x1, .i32⟩
  | .hbm, ⟨21, _⟩ => ⟨S6400000x1, .f32⟩
  | .hbm, ⟨22, _⟩ => ⟨S6400000x1, .f32⟩
  | .hbm, ⟨23, _⟩ => ⟨S_, .f32⟩
  | .hbm, ⟨24, _⟩ => ⟨S100000x1, .f32⟩
  | .hbm, ⟨25, _⟩ => ⟨S6400000x1, .i32⟩
  | .hbm, ⟨26, _⟩ => ⟨S100000x1, .f32⟩
  | .hbm, ⟨27, _⟩ => ⟨S1, .f32⟩
  | .hbm, ⟨28, _⟩ => ⟨S_, .f32⟩
  | .hbm, ⟨29, _⟩ => ⟨S100000x1, .f32⟩
  | .hbm, ⟨30, _⟩ => ⟨S100000x1, .f32⟩
  | .hbm, ⟨31, _⟩ => ⟨S100000x1, .f32⟩
  | .hbm, ⟨32, _⟩ => ⟨S_, .i32⟩
  | .hbm, ⟨33, _⟩ => ⟨S6400000, .i32⟩
  | .hbm, ⟨34, _⟩ => ⟨S6400000, .i1⟩
  | .hbm, ⟨35, _⟩ => ⟨S_, .i32⟩
  | .hbm, ⟨36, _⟩ => ⟨S6400000, .i32⟩
  | .hbm, ⟨37, _⟩ => ⟨S6400000, .i32⟩
  | .hbm, ⟨38, _⟩ => ⟨S6400000, .i32⟩
  | .hbm, ⟨39, _⟩ => ⟨S6400000x1, .i32⟩
  | .hbm, ⟨40, _⟩ => ⟨S6400000x1, .f32⟩
  | .hbm, ⟨41, _⟩ => ⟨S6400000x1, .f32⟩
  | .hbm, ⟨42, _⟩ => ⟨S_, .f32⟩
  | .hbm, ⟨43, _⟩ => ⟨S100000x1, .f32⟩
  | .hbm, ⟨44, _⟩ => ⟨S6400000x1, .i32⟩
  | .hbm, ⟨45, _⟩ => ⟨S100000x1, .f32⟩
  | .hbm, ⟨46, _⟩ => ⟨S1, .f32⟩
  | .hbm, ⟨47, _⟩ => ⟨S_, .f32⟩
  | .hbm, ⟨48, _⟩ => ⟨S100000x1, .f32⟩
  | .hbm, ⟨49, _⟩ => ⟨S100000x1, .f32⟩
  | .hbm, ⟨50, _⟩ => ⟨S100000x1, .f32⟩
  | .hbm, ⟨51, _⟩ => ⟨S_, .i32⟩
  | .hbm, ⟨52, _⟩ => ⟨S6400000, .i32⟩
  | .hbm, ⟨53, _⟩ => ⟨S6400000, .i1⟩
  | .hbm, ⟨54, _⟩ => ⟨S_, .i32⟩
  | .hbm, ⟨55, _⟩ => ⟨S6400000, .i32⟩
  | .hbm, ⟨56, _⟩ => ⟨S6400000, .i32⟩
  | .hbm, ⟨57, _⟩ => ⟨S6400000, .i32⟩
  | .hbm, ⟨58, _⟩ => ⟨S6400000x1, .i32⟩
  | .hbm, ⟨59, _⟩ => ⟨S6400000x1, .f32⟩
  | .hbm, ⟨60, _⟩ => ⟨S6400000x1, .f32⟩
  | .hbm, ⟨61, _⟩ => ⟨S_, .f32⟩
  | .hbm, ⟨62, _⟩ => ⟨S100000x1, .f32⟩
  | .hbm, ⟨63, _⟩ => ⟨S6400000x1, .i32⟩
  | .hbm, ⟨64, _⟩ => ⟨S100000x1, .f32⟩
  | .hbm, ⟨65, _⟩ => ⟨S1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x1, .f32⟩
  | .hbm, ⟨70, _⟩ => ⟨S_, .i32⟩
  | .hbm, ⟨71, _⟩ => ⟨S6400000, .i32⟩
  | .hbm, ⟨72, _⟩ => ⟨S6400000, .i1⟩
  | .hbm, ⟨73, _⟩ => ⟨S_, .i32⟩
  | .hbm, ⟨74, _⟩ => ⟨S6400000, .i32⟩
  | .hbm, ⟨75, _⟩ => ⟨S6400000, .i32⟩
  | .hbm, ⟨76, _⟩ => ⟨S6400000, .i32⟩
  | .hbm, ⟨77, _⟩ => ⟨S6400000x1, .i32⟩
  | .hbm, ⟨78, _⟩ => ⟨S6400000x1, .f32⟩
  | .hbm, ⟨79, _⟩ => ⟨S6400000x1, .f32⟩
  | .hbm, ⟨80, _⟩ => ⟨S_, .f32⟩
  | .hbm, ⟨81, _⟩ => ⟨S100000x1, .f32⟩
  | .hbm, ⟨82, _⟩ => ⟨S6400000x1, .i32⟩
  | .hbm, ⟨83, _⟩ => ⟨S100000x1, .f32⟩
  | .hbm, ⟨84, _⟩ => ⟨S1, .f32⟩
  | .hbm, ⟨85, _⟩ => ⟨S_, .f32⟩
  | .hbm, ⟨86, _⟩ => ⟨S100000x1, .f32⟩
  | .hbm, ⟨87, _⟩ => ⟨S100000x1, .f32⟩
  | .hbm, ⟨88, _⟩ => ⟨S100000x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_1 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_4 : Ref sig .tc := ⟨.hbm, 51, rfl⟩
abbrev main_v41 : Ref sig .tc := ⟨.hbm, 52, rfl⟩
abbrev main_v42 : Ref sig .tc := ⟨.hbm, 53, rfl⟩
abbrev main_c_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c_7 : Ref sig .tc := ⟨.hbm, 70, rfl⟩
abbrev main_v57 : Ref sig .tc := ⟨.hbm, 71, rfl⟩
abbrev main_v58 : Ref sig .tc := ⟨.hbm, 72, rfl⟩
abbrev main_c_8 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_9 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S6400000_S6400000x1_0 : S6400000.BroadcastsInDim S6400000x1 (![0] : Fin 1 → Fin S6400000x1.rank)
  slices_S5_S1_0 : S5.Slices ![0] S1
  shapeCasts_S1_S_ : S1.ShapeCasts S_
  bcast_S_S100000x1 : S_.BroadcastsInDim S100000x1 (![] : Fin 0 → Fin S100000x1.rank)
  bcast_S_S6400000 : S_.BroadcastsInDim S6400000 (![] : Fin 0 → Fin S6400000.rank)
  slices_S5_S1_1 : S5.Slices ![1] S1
  slices_S5_S1_2 : S5.Slices ![2] S1
  slices_S5_S1_3 : S5.Slices ![3] S1
  slices_S5_S1_4 : S5.Slices ![4] S1
  gather_S100000x1_S6400000x1_S6400000x1_1_0_n_n_0_1_11_wf : GatherDims.WF S100000x1 S6400000x1 S6400000x1 [1] [0] [] [0] [] 1 ![1, 1]
  scatter_S100000x1_S6400000x1_S6400000x1_1_0_0_1_wf : ScatterDims.WF S100000x1 S6400000x1 S6400000x1 [1] [0] [0] 1

variable [Facts₀]

def gather_S100000x1_S6400000x1_S6400000x1_1_0_n_n_0_1_11 : GatherDims S100000x1 S6400000x1 S6400000x1 where
  offsetDims := [1]
  collapsedSliceDims := [0]
  operandBatchingDims := []
  startIndicesBatchingDims := []
  startIndexMap := [0]
  indexVectorDim := 1
  sliceSizes := ![1, 1]
  wf := gather_S100000x1_S6400000x1_S6400000x1_1_0_n_n_0_1_11_wf
def scatter_S100000x1_S6400000x1_S6400000x1_1_0_0_1 : ScatterDims S100000x1 S6400000x1 S6400000x1 where
  updateWindowDims := [1]
  insertedWindowDims := [0]
  scatterDimsToOperandDims := [0]
  indexVectorDim := 1
  wf := scatter_S100000x1_S6400000x1_S6400000x1_1_0_0_1_wf

class Facts : Prop extends Facts₀ where

variable [Facts]
-- ==== Proof.Spec.lean ====
/-
  What both programs compute, as functions of the four argument arrays.

  x : [N, 1] node values, edges : [2, E] integer (row 0 the source node of each edge, row 1 its
  destination), p : [E] edge weights, w : [5] step weights, N = 100000, E = 6400000.

  One step sends a node vector cur : [N, 1] to the vector whose entry n is the sum, over the edges e whose
  destination is n, of cur[source e] * p e  (a source read signed, a negative one moved up by N, then clamped
  into [0, N - 1]; a destination outside [0, N) receives nothing).  The result is
      w0 * x + w1 * step x + w2 * step (step x) + w3 * step^3 x + w4 * step^4 x.

  The step is written twice, operation by operation as each program spells it:
  * flat: cur is re-laid as a vector [N], gathered into [E], re-laid as [50000, 128], multiplied entry by entry
    with p re-laid the same way, re-laid back to [E], scatter-added into a zero vector [N], and that vector
    made a column [N, 1];
  * by rows: the rows of cur are gathered into [E, 1], multiplied by p made a column [E, 1], and scatter-added
    row by row into a zero column [N, 1].
-/
import proofs.«174738_j1176821039620_1_alg».proof.KernelIdeal
import proofs.«174738_j1176821039620_1_alg».proof.ReferenceIdeal
import Idealize.ShloMosaic.PureOps.Ideal

noncomputable section

namespace Cert.MsgPass

open Idealize.ShloMosaic

section Shared
open Cert.KernelIdeal Cert.KernelIdeal.Facts₀
variable [hK : Cert.KernelIdeal.Facts]

/-- Row 0 of the edge array as a vector [E]: the source node of each edge, as written. -/
def srcRaw (a1 : IVec S2x6400000 32) : IVec S6400000 32 :=
  shapeCast S6400000 (extractStridedSlice S1x6400000 ![0, 0] a1 slices_S2x6400000_S1x6400000_0_0) shapeCasts_S1x6400000_S6400000

/-- Row 1 of the edge array as a vector [E]: the destination node of each edge. -/
def dstRaw (a1 : IVec S2x6400000 32) : IVec S6400000 32 :=
  shapeCast S6400000 (extractStridedSlice S1x6400000 ![1, 0] a1 slices_S2x6400000_S1x6400000_1_0) shapeCasts_S1x6400000_S6400000

/-- The source with a negative value moved up by N. -/
def srcNorm (s : IVec S6400000 32) : IVec S6400000 32 :=
  select (cmpi .slt s (broadcastInDim S6400000 ![] bcast_S_S6400000 (constantI S_ 32 0#32)))
    (addi s (broadcastInDim S6400000 ![] bcast_S_S6400000 (constantI S_ 32 100000#32))) s

/-- A vector [E] of integers as a column [E, 1]. -/
def col (s : IVec S6400000 32) : IVec S6400000x1 32 :=
  broadcastInDim S6400000x1 ![0] bcast_S6400000_S6400000x1_0 s

/-- Entry k of the step weights, repeated over [N, 1]. -/
def wt0 (a3 : FVec Ideal S5 .f32) : FVec Ideal S100000x1 .f32 :=
  broadcastInDim S100000x1 ![] bcast_S_S100000x1 (shapeCast S_ (extractStridedSlice S1 ![0] a3 slices_S5_S1_0) shapeCasts_S1_S_)
def wt1 (a3 : FVec Ideal S5 .f32) : FVec Ideal S100000x1 .f32 :=
  broadcastInDim S100000x1 ![] bcast_S_S100000x1 (shapeCast S_ (extractStridedSlice S1 ![1] a3 slices_S5_S1_1) shapeCasts_S1_S_)
def wt2 (a3 : FVec Ideal S5 .f32) : FVec Ideal S100000x1 .f32 :=
  broadcastInDim S100000x1 ![] bcast_S_S100000x1 (shapeCast S_ (extractStridedSlice S1 ![2] a3 slices_S5_S1_2) shapeCasts_S1_S_)
def wt3 (a3 : FVec Ideal S5 .f32) : FVec Ideal S100000x1 .f32 :=
  broadcastInDim S100000x1 ![] bcast_S_S100000x1 (shapeCast S_ (extractStridedSlice S1 ![3] a3 slices_S5_S1_3) shapeCasts_S1_S_)
def wt4 (a3 : FVec Ideal S5 .f32) : FVec Ideal S100000x1 .f32 :=
  broadcastInDim S100000x1 ![] bcast_S_S100000x1 (shapeCast S_ (extractStridedSlice S1 ![4] a3 slices_S5_S1_4) shapeCasts_S1_S_)

/-- The gathered sources, re-laid as [50000, 128]: the first operand of the entrywise product. -/
def gathered (cur : FVec Ideal S100000x1 .f32) (s : IVec S6400000 32) : FVec Ideal S50000x128 .f32 :=
  shapeCast S50000x128
    (Host.gather gather_S100000_S6400000x1_S6400000_n_0_n_n_0_1_1 (shapeCast S100000 cur shapeCasts_S100000x1_S100000) (col (srcNorm s)))
    shapeCasts_S6400000_S50000x128

/-- The edge weights re-laid as [50000, 128]: the second operand. -/
def probs (ep : FVec Ideal S6400000 .f32) : FVec Ideal S50000x128 .f32 :=
  shapeCast S50000x128 ep shapeCasts_S6400000_S50000x128

/-- From the entrywise product [50000, 128] to the next node vector: re-laid as [E], scatter-added into zeros [N]
    at the destinations, made a column. -/
def scattered (prod : FVec Ideal S50000x128 .f32) (d : IVec S6400000 32) : FVec Ideal S100000x1 .f32 :=
  broadcastInDim S100000x1 ![0] bcast_S100000_S100000x1_0
    (Host.scatterAdd scatter_S100000_S6400000x1_S6400000_n_0_0_1
      (broadcastInDim S100000 ![] bcast_S_S100000 (constant (F := Ideal) S_ .f32 0x00000000#32))
      (col d)
      (shapeCast S6400000 prod shapeCasts_S50000x128_S6400000))

/-- One step, flat. -/
def stepFlat (s d : IVec S6400000 32) (ep : FVec Ideal S6400000 .f32) (cur : FVec Ideal S100000x1 .f32) :
    FVec Ideal S100000x1 .f32 :=
  scattered (mulf (gathered cur s) (probs ep)) d

/-- The weighted sum of x and its four successive images under a step. -/
def combine (step : FVec Ideal S100000x1 .f32 → FVec Ideal S100000x1 .f32) (a0 : FVec Ideal S100000x1 .f32)
    (a3 : FVec Ideal S5 .f32) : FVec Ideal S100000x1 .f32 :=
  addf (addf (addf (addf (mulf (wt0 a3) a0) (mulf (wt1 a3) (step a0))) (mulf (wt2 a3) (step (step a0))))
    (mulf (wt3 a3) (step (step (step a0))))) (mulf (wt4 a3) (step (step (step (step a0)))))

end Shared

section ByRows
variable [hK : Cert.KernelIdeal.Facts] [hR : Cert.ReferenceIdeal.Facts]

/-- One step, by rows. -/
def stepRows (s d : IVec Cert.KernelIdeal.S6400000 32) (ep : FVec Ideal Cert.KernelIdeal.S6400000 .f32)
    (cur : FVec Ideal Cert.KernelIdeal.S100000x1 .f32) : FVec Ideal Cert.KernelIdeal.S100000x1 .f32 :=
  Host.scatterAdd Cert.ReferenceIdeal.scatter_S100000x1_S6400000x1_S6400000x1_1_0_0_1
    (broadcastInDim Cert.ReferenceIdeal.S100000x1 ![] Cert.ReferenceIdeal.Facts₀.bcast_S_S100000x1 (constant (F := Ideal) Cert.ReferenceIdeal.S_ .f32 0x00000000#32))
    (col d)
    (mulf (Host.gather Cert.ReferenceIdeal.gather_S100000x1_S6400000x1_S6400000x1_1_0_n_n_0_1_11 cur (col (srcNorm s)))
      (broadcastInDim Cert.ReferenceIdeal.S6400000x1 ![0] Cert.ReferenceIdeal.Facts₀.bcast_S6400000_S6400000x1_0 ep))

end ByRows

end Cert.MsgPass

end
-- ==== Proof.LibVecIndex.lean ====
/-
  A gather and a scatter-add of a flat array, read at an index.

  A vector x : [N] gathered at a column of positions idx : [E, 1] gives the vector whose entry e is the entry
  of x numbered idx[e, 0] (read signed and clamped into [0, N - 1]).  Scatter-adding the entries of
  upd : [E] into x at those positions adds to every entry n of x the entries of upd whose position, read
  signed and not clamped, is n; a position outside [0, N) contributes nothing.
-/
import Idealize.ShloMosaic.PureOps.Ideal
import Idealize.ShloMosaic.Lib.ValueIdx

noncomputable section

open scoped BigOperators

namespace Cert.GNN.VecIndex

open Idealize.ShloMosaic Idealize.ShloMosaic.ValueIdx

/-- A sum over the indices of a flat array is the sum over its positions. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ (fun i => ?_)
  exact congrArg f (eq_ix1 i)

/-! ## The gather -/

section Gather
variable {α : Type}

/-- The dimension numbers of a flat gather: operand [N], start indices [E, 1] (the index vector on axis 1, of
    length one, naming operand axis 0), result [E], no offset axis, slices [1] with operand axis 0 collapsed. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT e: the operand at position idx[e, 0], read signed and clamped into [0, N - 1]. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## The scatter-add -/

section Scatter

/-- The dimension numbers of a flat scatter: operand [N], scatter indices [E, 1] (the index vector on axis 1, of
    length one, naming operand axis 0), updates [E], no window axis, operand axis 0 inserted. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The window of update j starts at the position idx[j 0, 0], read signed. -/
theorem start_pos (idx : IVec ⟨2, ![E, 1]⟩ w) (j : (⟨1, ![E]⟩ : Shape).Idx) :
    (vecScatterDims N E wf).start j idx 0 = (idx (ix2 (j 0) (0 : Fin 1))).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The only axis is inserted: no window coordinate. -/
theorem window_pos (j : (⟨1, ![E]⟩ : Shape).Idx) : (vecScatterDims N E wf).window j 0 = 0 := by
  unfold ScatterDims.window
  rw [dif_neg (show ¬ (0 : Fin 1) ∈ (vecScatterDims N E wf).sKept from
    (by decide : (0 : Fin 1) ∉ (List.finRange 1).filter (fun a => a ∉ [(0 : Fin 1)])))]

/-- Update j lands at n exactly when its position, read signed, is n. -/
theorem resultIdx?_vec_eq_some_iff (idx : IVec ⟨2, ![E, 1]⟩ w) (j : (⟨1, ![E]⟩ : Shape).Idx) (n : Fin N) :
    (vecScatterDims N E wf).resultIdx? j idx = some (ix1 n) ↔
      (idx (ix2 (j 0) (0 : Fin 1))).toInt = (n.val : Int) := by
  unfold ScatterDims.resultIdx?
  constructor
  · intro h
    split at h
    · rename_i hh
      have h' := Option.some.inj h
      have h0 : ((vecScatterDims N E wf).start j idx 0 + ((vecScatterDims N E wf).window j 0 : Int)).toNat = n.val :=
        congrArg (fun f => (f 0).val) h'
      have hh0 := (hh 0).1
      rw [start_pos, window_pos] at h0 hh0
      omega
    · exact absurd h (by simp)
  · intro h0
    have hn := n.isLt
    rw [dif_pos]
    · congr 1
      funext a
      obtain rfl : a = 0 := Subsingleton.elim _ _
      refine Fin.ext ?_
      show ((vecScatterDims N E wf).start j idx 0 + ((vecScatterDims N E wf).window j 0 : Int)).toNat = n.val
      rw [start_pos, window_pos, h0]; omega
    · intro a
      obtain rfl : a = 0 := Subsingleton.elim _ _
      show 0 ≤ (vecScatterDims N E wf).start j idx 0 + ((vecScatterDims N E wf).window j 0 : Int) ∧
        (vecScatterDims N E wf).start j idx 0 + ((vecScatterDims N E wf).window j 0 : Int) < (N : Int)
      rw [start_pos, window_pos, h0]; omega

/-- THE FLAT SCATTER-ADD READ AT n: the operand's entry plus the update entries whose position, read signed, is n. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  rw [Finset.sum_filter, sum_idx1, Finset.sum_filter]
  refine Finset.sum_congr rfl (fun e _ => ?_)
  refine if_congr ?_ rfl rfl
  rw [resultIdx?_vec_eq_some_iff]
  exact Iff.rfl

/-- The same for Host.scatterAdd at the exact instance, which is that sum by definition. -/
theorem host_scatterAdd_vec_apply {φ : FTy} (x : FVec Ideal ⟨1, ![N]⟩ φ) (idx : IVec ⟨2, ![E, 1]⟩ w)
    (upd : FVec Ideal ⟨1, ![E]⟩ φ) (n : Fin N) :
    Host.scatterAdd (vecScatterDims N E wf) x idx upd (ix1 n)
      = x (ix1 n) + ∑ e ∈ Finset.univ.filter (fun e : Fin E => (idx (ix2 e (0 : Fin 1))).toInt = (n.val : Int)),
          upd (ix1 e) :=
  scatterAdd_vec_apply wf x idx upd n

end Scatter

end Cert.GNN.VecIndex

end
-- ==== Proof.LibRowIndex.lean ====
/-
  A row gather and a row scatter-add, read at an index.

  A matrix `x : [N, C]` gathered at a column of row numbers `idx : [E, 1]` gives the matrix whose row `e` is the
  row of `x` numbered `idx[e, 0]` (read signed and clamped into `[0, N - 1]`).  Scatter-adding the rows of
  `upd : [E, C]` into `x` at those row numbers adds to every row `n` of `x` the rows of `upd` whose row number,
  read signed and not clamped, is `n`; a row number outside `[0, N)` contributes nothing.
-/
import Idealize.ShloMosaic.PureOps.Ideal
import Idealize.ShloMosaic.Lib.ValueIdx

noncomputable section

open scoped BigOperators

namespace Cert.GNN.RowIndex

open Idealize.ShloMosaic Idealize.ShloMosaic.ValueIdx

/-! ## The gather of rows -/

section Gather
variable {α : Type}

/-- The dimension numbers of a row gather: operand `[N, C]`, start indices `[E, 1]` (the index vector on axis 1,
    of length one, naming operand axis 0), result `[E, C]` whose axis 1 is the offset axis over slices `[1, C]`
    with operand axis 0 collapsed. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand at row `idx[e, 0]` (read signed, clamped into `[0, N - 1]`),
    column `k`. -/
theorem gather_row_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg (show ¬ (1 : Fin 2) ∈ (rowGatherDims N E C wf).startIndexMap from
        (by decide : (1 : Fin 2) ∉ [(0 : Fin 2)]))]
    rw [hs]
    have hk : (1 : Fin 2) ∈ (rowGatherDims N E C wf).sKept :=
      (GatherDims.mem_sKept _ _).mpr ⟨(by decide : (1 : Fin 2) ∉ [(0 : Fin 2)]), List.not_mem_nil⟩
    unfold GatherDims.offCoord
    rw [dif_pos hk]
    simp only [Nat.zero_add, Nat.add_zero]
    rfl

/-- The row gather at an in-range row number: if `idx[e, 0]`, read signed, is the row number `r`, the result's
    row `e` is the operand's row `r`. -/
theorem gather_row_apply_of_eq {N E C w : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) (r : Fin N)
    (h : (idx (ix2 e (0 : Fin 1))).toInt = (r.val : Int)) :
    Host.gather (rowGatherDims N E C wf) x idx (ix2 e k) = x (ix2 r k) := by
  have hN : 0 < N := Nat.lt_of_le_of_lt (Nat.zero_le _) r.isLt
  rw [gather_row_apply hN wf x idx e k]
  congr 2
  refine Fin.ext ?_
  show min (idx (ix2 e (0 : Fin 1))).toInt.toNat (N - 1) = r.val
  rw [h]
  have := r.isLt
  simp only [Int.toNat_natCast]
  omega

end Gather

/-! ## The scatter-add of rows -/

section Scatter

/-- The dimension numbers of a row scatter: operand `[N, C]`, scatter indices `[E, 1]` (the index vector on axis 1,
    of length one, naming operand axis 0), updates `[E, C]` whose axis 1 is the window axis, operand axis 0
    inserted. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `j` starts at the row number `idx[j 0, 0]`, read signed. -/
theorem start_row (idx : IVec ⟨2, ![E, 1]⟩ w) (j : (⟨2, ![E, C]⟩ : Shape).Idx) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at `0`. -/
theorem start_col (idx : IVec ⟨2, ![E, 1]⟩ w) (j : (⟨2, ![E, C]⟩ : Shape).Idx) :
    (rowScatterDims N E C wf).start j idx 1 = 0 := by
  unfold ScatterDims.start
  rw [dif_neg (show ¬ (1 : Fin 2) ∈ (rowScatterDims N E C wf).scatterDimsToOperandDims from
    (by decide : (1 : Fin 2) ∉ [(0 : Fin 2)]))]

/-- The row axis is inserted: no window coordinate. -/
theorem window_row (j : (⟨2, ![E, C]⟩ : Shape).Idx) : (rowScatterDims N E C wf).window j 0 = 0 := by
  unfold ScatterDims.window
  rw [dif_neg (show ¬ (0 : Fin 2) ∈ (rowScatterDims N E C wf).sKept from
    (by decide : (0 : Fin 2) ∉ (List.finRange 2).filter (fun a => a ∉ [(0 : Fin 2)])))]

/-- The column axis carries the update's column. -/
theorem window_col (j : (⟨2, ![E, C]⟩ : Shape).Idx) : (rowScatterDims N E C wf).window j 1 = (j 1).val := by
  unfold ScatterDims.window
  rw [dif_pos (show (1 : Fin 2) ∈ (rowScatterDims N E C wf).sKept from
    (by decide : (1 : Fin 2) ∈ (List.finRange 2).filter (fun a => a ∉ [(0 : Fin 2)])))]
  rfl

/-- Update `j` lands at `(n, c)` exactly when its row number, read signed, is `n` and its column is `c`. -/
theorem resultIdx?_row_eq_some_iff (idx : IVec ⟨2, ![E, 1]⟩ w) (j : (⟨2, ![E, C]⟩ : Shape).Idx) (n : Fin N) (c : Fin C) :
    (rowScatterDims N E C wf).resultIdx? j idx = some (ix2 n c) ↔
      (idx (ix2 (j 0) (0 : Fin 1))).toInt = (n.val : Int) ∧ j 1 = c := by
  unfold ScatterDims.resultIdx?
  constructor
  · intro h
    split at h
    · rename_i hh
      have h' := Option.some.inj h
      have h0 : ((rowScatterDims N E C wf).start j idx 0 + ((rowScatterDims N E C wf).window j 0 : Int)).toNat = n.val :=
        congrArg (fun f => (f 0).val) h'
      have h1 : ((rowScatterDims N E C wf).start j idx 1 + ((rowScatterDims N E C wf).window j 1 : Int)).toNat = c.val :=
        congrArg (fun f => (f 1).val) h'
      have hh0 := (hh 0).1
      rw [start_row, window_row] at h0 hh0
      rw [start_col, window_col] at h1
      refine ⟨by omega, Fin.ext (by omega)⟩
    · exact absurd h (by simp)
  · rintro ⟨h0, h1⟩
    have hn := n.isLt
    have hc := c.isLt
    have hj1 : (j 1).val = c.val := congrArg Fin.val h1
    rw [dif_pos]
    · congr 1
      funext a
      refine Fin.ext ?_
      match a with
      | ⟨0, _⟩ =>
        show ((rowScatterDims N E C wf).start j idx 0 + ((rowScatterDims N E C wf).window j 0 : Int)).toNat = n.val
        rw [start_row, window_row, h0]; omega
      | ⟨1, _⟩ =>
        show ((rowScatterDims N E C wf).start j idx 1 + ((rowScatterDims N E C wf).window j 1 : Int)).toNat = c.val
        rw [start_col, window_col, hj1]; omega
    · intro a
      match a with
      | ⟨0, _⟩ =>
        show 0 ≤ (rowScatterDims N E C wf).start j idx 0 + ((rowScatterDims N E C wf).window j 0 : Int) ∧
          (rowScatterDims N E C wf).start j idx 0 + ((rowScatterDims N E C wf).window j 0 : Int) < (N : Int)
        rw [start_row, window_row, h0]; omega
      | ⟨1, _⟩ =>
        show 0 ≤ (rowScatterDims N E C wf).start j idx 1 + ((rowScatterDims N E C wf).window j 1 : Int) ∧
          (rowScatterDims N E C wf).start j idx 1 + ((rowScatterDims N E C wf).window j 1 : Int) < (C : Int)
        rw [start_col, window_col, hj1]; omega

/-- THE ROW SCATTER-ADD READ AT `(n, d)`: the operand's element plus the column-`d` elements of the update rows
    whose row number, read signed, is `n`. -/
theorem scatterAdd_row_apply (x : (⟨2, ![N, C]⟩ : Shape).Idx → EReal) (idx : IVec ⟨2, ![E, 1]⟩ w)
    (upd : (⟨2, ![E, C]⟩ : Shape).Idx → EReal) (n : Fin N) (d : Fin C) :
    Ideal.hostScatterAdd (rowScatterDims N E C wf) x idx upd (ix2 n d)
      = x (ix2 n d) + ∑ e ∈ Finset.univ.filter (fun e : Fin E => (idx (ix2 e (0 : Fin 1))).toInt = (n.val : Int)),
          upd (ix2 e d) := by
  unfold Ideal.hostScatterAdd
  congr 1
  rw [Finset.sum_filter, sum_idx2, Finset.sum_filter]
  refine Finset.sum_congr rfl (fun e _ => ?_)
  have hstep : ∀ b : Fin C,
      (if (rowScatterDims N E C wf).resultIdx? (ix2 e b) idx = some (ix2 n d) then upd (ix2 e b) else 0)
        = if d = b then (if (idx (ix2 e (0 : Fin 1))).toInt = (n.val : Int) then upd (ix2 e d) else 0) else 0 := by
    intro b
    by_cases hb : d = b
    · subst hb
      rw [if_pos rfl]
      refine if_congr ?_ rfl rfl
      rw [resultIdx?_row_eq_some_iff]
      exact ⟨fun h => h.1, fun h => ⟨h, rfl⟩⟩
    · rw [if_neg hb, if_neg]
      rw [resultIdx?_row_eq_some_iff]
      exact fun h => hb h.2.symm
  rw [Finset.sum_congr rfl (fun b _ => hstep b), Finset.sum_ite_eq]
  simp only [Finset.mem_univ, if_true]

/-- The same for `Host.scatterAdd` at the exact instance, which is that sum by definition. -/
theorem host_scatterAdd_row_apply {φ : FTy} (x : FVec Ideal ⟨2, ![N, C]⟩ φ) (idx : IVec ⟨2, ![E, 1]⟩ w)
    (upd : FVec Ideal ⟨2, ![E, C]⟩ φ) (n : Fin N) (d : Fin C) :
    Host.scatterAdd (rowScatterDims N E C wf) x idx upd (ix2 n d)
      = x (ix2 n d) + ∑ e ∈ Finset.univ.filter (fun e : Fin E => (idx (ix2 e (0 : Fin 1))).toInt = (n.val : Int)),
          upd (ix2 e d) :=
  scatterAdd_row_apply wf x idx upd n d

end Scatter

end Cert.GNN.RowIndex

end
-- ==== Proof.StepEq.lean ====
/-
  One message-passing step, written flat and written by rows, is the same function.

  Both spellings send a node column cur : [N, 1] to the column whose entry (n, 0) is
      0 + (the sum over the edges e whose destination word, read signed, is n) of cur(clamp(source e), 0) * p e.
  The flat spelling re-lays cur as a vector [N], gathers it into [E], re-lays that as [50000, 128], multiplies it
  entry by entry with p re-laid the same way, re-lays the product back to [E], scatter-adds it into zeros [N] and
  makes the result a column.  Re-laying commutes with an entrywise product, and re-laying [E] as [50000, 128] and
  back is the identity (both keep the row-major position), so the vector that is scattered is e ↦ gather e * p e.
  The spelling by rows gathers the rows of cur into [E, 1], multiplies by p made a column [E, 1] and scatter-adds the
  rows into zeros [N, 1].  Read at one index, each gather is cur at the clamped source and each scatter-add is the
  zero entry plus the sum over the same set of edges; the two sums agree term by term.
-/
import proofs.«174738_j1176821039620_1_alg».proof.Proof.Spec
import proofs.«174738_j1176821039620_1_alg».proof.Proof.LibVecIndex
import proofs.«174738_j1176821039620_1_alg».proof.Proof.LibRowIndex
import Idealize.ShloMosaic.Lib.ValueIdx
import Idealize.ShloMosaic.Lib.Pipeline.Value
import Idealize.ShloMosaic.PureOps.Ideal

noncomputable section

open scoped BigOperators

namespace Cert.MsgPass

open Idealize.ShloMosaic Idealize.ShloMosaic.ValueIdx

/-! ## The programs' dimension records are the flat and the row records -/

section Records
variable [hK : Cert.KernelIdeal.Facts] [hR : Cert.ReferenceIdeal.Facts]

/-- The flat program's gather record is the flat gather of [N] at [E, 1]. -/
theorem gatherFlat_eq :
    Cert.KernelIdeal.gather_S100000_S6400000x1_S6400000_n_0_n_n_0_1_1
      = Cert.GNN.VecIndex.vecGatherDims 100000 6400000
          Cert.KernelIdeal.Facts₀.gather_S100000_S6400000x1_S6400000_n_0_n_n_0_1_1_wf := rfl

/-- The flat program's scatter record is the flat scatter into [N] at [E, 1]. -/
theorem scatterFlat_eq :
    Cert.KernelIdeal.scatter_S100000_S6400000x1_S6400000_n_0_0_1
      = Cert.GNN.VecIndex.vecScatterDims 100000 6400000
          Cert.KernelIdeal.Facts₀.scatter_S100000_S6400000x1_S6400000_n_0_0_1_wf := rfl

/-- The program by rows gathers rows of [N, 1] at [E, 1]. -/
theorem gatherRows_eq :
    Cert.ReferenceIdeal.gather_S100000x1_S6400000x1_S6400000x1_1_0_n_n_0_1_11
      = Cert.GNN.RowIndex.rowGatherDims 100000 6400000 1
          Cert.ReferenceIdeal.Facts₀.gather_S100000x1_S6400000x1_S6400000x1_1_0_n_n_0_1_11_wf := rfl

/-- The program by rows scatters rows into [N, 1] at [E, 1]. -/
theorem scatterRows_eq :
    Cert.ReferenceIdeal.scatter_S100000x1_S6400000x1_S6400000x1_1_0_0_1
      = Cert.GNN.RowIndex.rowScatterDims 100000 6400000 1
          Cert.ReferenceIdeal.Facts₀.scatter_S100000x1_S6400000x1_S6400000x1_1_0_0_1_wf := rfl

end Records

/-! ## Re-laying -/

section Relay
open Cert.KernelIdeal Cert.KernelIdeal.Facts₀
variable [hK : Cert.KernelIdeal.Facts]

/-- Re-laying a vector [E] as [50000, 128] and back gives the vector: each re-laying keeps the row-major position. -/
theorem relay_back {α : Type} (z : S6400000.Idx → α) :
    shapeCast S6400000 (shapeCast S50000x128 z shapeCasts_S6400000_S50000x128) shapeCasts_S50000x128_S6400000 = z := by
  funext j
  show z (Shape.reshapeEquiv _ (Shape.reshapeEquiv _ j)) = z j
  rw [Shape.reshapeEquiv_reshapeEquiv, Shape.reshapeEquiv_self]

/-- The vector the flat step scatters: entry e is the gathered entry e times the weight of e. -/
theorem flat_updates (g ep : FVec Ideal S6400000 .f32) :
    shapeCast S6400000
        (mulf (shapeCast S50000x128 g shapeCasts_S6400000_S50000x128)
          (shapeCast S50000x128 ep shapeCasts_S6400000_S50000x128))
        shapeCasts_S50000x128_S6400000
      = mulf g ep :=
  relay_back (mulf g ep)

/-- The node column re-laid as a vector, read at r, is the column's entry (r, 0). -/
theorem relay_col_apply {α : Type} (cur : S100000x1.Idx → α) (r : Fin 100000) :
    shapeCast S100000 cur shapeCasts_S100000x1_S100000 (ix1 r) = cur (ix2 r (0 : Fin 1)) := by
  refine shapeCast_apply cur shapeCasts_S100000x1_S100000 (ix1 r) (ix2 r (0 : Fin 1)) ?_
  rw [Shape.rowMajor_val_two, Shape.rowMajor_val_one]
  show r.val * 1 + 0 = r.val
  omega

end Relay

/-! ## The two spellings of a step -/

section Step
open Cert.KernelIdeal Cert.KernelIdeal.Facts₀
variable [hK : Cert.KernelIdeal.Facts] [hR : Cert.ReferenceIdeal.Facts]

/-- ONE STEP, FLAT AND BY ROWS, IS THE SAME COLUMN.  At (n, 0) both are the zero entry plus the sum, over the edges
    whose destination word read signed is n, of cur at the clamped source times the edge's weight. -/
theorem step_eq (s d : IVec Cert.KernelIdeal.S6400000 32) (ep : FVec Ideal Cert.KernelIdeal.S6400000 .f32)
    (cur : FVec Ideal Cert.KernelIdeal.S100000x1 .f32) : stepFlat s d ep cur = stepRows s d ep cur := by
  funext j
  -- an index of [N, 1] is (n, 0)
  obtain ⟨n, c, rfl⟩ : ∃ (n : Fin 100000) (c : Fin 1), j = ix2 n c := ⟨j 0, j 1, eq_ix2 j⟩
  obtain rfl : c = 0 := Subsingleton.elim _ _
  unfold stepFlat stepRows scattered gathered probs
  -- the flat step scatters the vector e ↦ gather e * p e
  rw [flat_updates]
  -- the column made of a vector [N], read at (n, 0), is the vector at n
  refine (broadcastInDim_apply _ _ _ (ix2 n (0 : Fin 1)) (ix1 n) ?_).trans ?_
  · intro a
    match a with
    | ⟨0, _⟩ => rfl
  -- each scatter-add read at its index: the operand's entry plus the sum over the edges landing there
  rw [scatterFlat_eq, scatterRows_eq, gatherFlat_eq, gatherRows_eq]
  refine (Cert.GNN.VecIndex.host_scatterAdd_vec_apply _ _ _ _ n).trans ?_
  refine Eq.trans ?_ (Cert.GNN.RowIndex.host_scatterAdd_row_apply _ _ _ _ n (0 : Fin 1)).symm
  -- the operands are the same constant everywhere; the sums run over the same edges
  refine congrArg₂ (· + ·) rfl (Finset.sum_congr rfl (fun e _ => ?_))
  -- term e: each gather reads cur at (clamped source of e, 0)
  rw [mulf_apply, mulf_apply,
    Cert.GNN.VecIndex.gather_vec_apply (show 0 < 100000 by omega),
    Cert.GNN.RowIndex.gather_row_apply (show 0 < 100000 by omega), relay_col_apply]
  -- and the weights made a column, read at (e, 0), are the weight of e
  refine congrArg₂ (· * ·) rfl ?_
  exact (broadcastInDim_apply _ _ _ (ix2 e (0 : Fin 1)) (ix1 e) (fun a => match a with | ⟨0, _⟩ => rfl)).symm

end Step

end Cert.MsgPass

end
-- ==== Proof.KernelRun.lean ====
/-
  The idealized kernel program's run, with every buffer that outlives the run read off.

  @main is nine segments: five stretches of host operations and, between them, four launches of the
  entrywise-product kernel.  The buffer contents at each segment boundary are a fold through @main from the
  launch memory (the generated W0 … W9: a stretch applies its operations, a launch leaves its output array at
  what its write-backs leave and every other buffer as entered).  The library's rule for a program of several
  launches composes the segments: every weakly fair execution terminates, nothing faults, and in the final memory
  every buffer not scoped to a launch holds the last boundary's contents W9.  Read at the result buffer and at the
  four argument buffers, that is the run the value claim needs.
-/
import proofs.«174738_j1176821039620_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every buffer that is not scoped to a
    launch ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The run read at the result and the arguments: the result buffer ends at the last boundary's contents, the
    argument arrays as launched. -/
theorem run_result : θ_run defs (onTc (τ := τ) (main (F := F))) ⟨m, fun _ => 0, ρ⟩ (fun r => ∀ c : Dev nD,
      r.2.mem ((c.tc : Thread nD τ).loc main_v91) = W9 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v91 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c)⟩)
    (run_all m ρ)

end Cert.KernelIdeal.Whole

end
-- ==== Proof.Prod0.lean ====
/-
  The first launch of the entrywise-product kernel: what its output array holds when the launch ends.

  The launch walks a grid of 5 points; at point t each of its three windows is the block of rows
  [10000 t, 10000 t + 10000) of a [50000, 128] array, and the body stores into the output block the
  entrywise product of the two input blocks.  The three windows move together, so the block written back at
  point t is block t of the entrywise product of the two WHOLE input arrays as the launch finds them; the five
  blocks tile the output array (row r lies in block r / 10000), so the array ends holding that product.
  All of it for any contents V of the buffers at the launch's entry, and at any float instance.
-/
import proofs.«174738_j1176821039620_1_alg».proof.Proof.Gen.KernelIdeal.Frame
import Idealize.ShloMosaic.Lib.Pipeline.Value

set_option maxRecDepth 16384

noncomputable section

namespace Cert.KernelIdeal.Prod0

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's one access starts at the block's origin. -/
theorem origin_zero : (![0, 0] : Fin 2 → Nat) = fun _ => 0 := funext fun a => by fin_cases a <;> rfl

/-- The entrywise product of two [50000, 128] arrays. -/
abbrev prod (a0 a1 : S50000x128.Idx → Elt F .f32) : S50000x128.Idx → Elt F .f32 := fun i => FloatOps.mulf (a0 i) (a1 i)

/-- What the body stores is the entrywise product of the two blocks it loaded (the two casts it makes are to
    the blocks' own shape). -/
theorem body_eq (x0 x1 : Vec F S10000x128 .f32) : k0_pay1 x0 x1 = mulf x0 x1 := by
  unfold k0_pay1
  rw [shapeCast_self, shapeCast_self]

/-- The three windows' index maps agree at every grid point, the row-block index is at most 4 and the column-block
    index is 0: decided over the 5 points. -/
theorem index_maps : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 4 ∧ win0_2.index t (1 : Fin 2) = 0 :=
  (by decide +kernel : ∀ t : Fin grid0.N, _)

/-- Every row block is some grid point's. -/
theorem point_of_block : ∀ q : Fin 5, ∃ t : Fin cfg0.N, win0_2.index t = ![q.val, 0] :=
  (by decide +kernel : ∀ q : Fin 5, ∃ t : Fin grid0.N, win0_2.index t = ![q.val, 0])

/-- What point t writes back is block t of the product of the two input arrays as the launch finds them. -/
theorem flushed_eq (c : Dev nD) (t : Fin cfg0.N) :
    (dat0 V c).flushed 2 t = ((cfg0.win 2).blk t).view.read (Elt F) (prod (V c main_v16) (V c main_v17)) := by
  show (cfg0.win 2).cut (grid0.coords t) ((dat0 V c).after 2 t) = _
  rw [after0_2]
  unfold out0_2
  rw [View.canon_unit_zero origin_zero]
  simp only [View.ld_unit_zero (S := S10000x128) origin_zero]
  rw [body_eq]
  obtain ⟨e0, e1, e2, e3, e4, e5⟩ := index_maps t
  funext j
  show FloatOps.mulf (V c main_v16 (((cfg0.win 0).blk t).view.emb j)) (V c main_v17 (((cfg0.win 1).blk t).view.emb j))
    = FloatOps.mulf (V c main_v16 (((cfg0.win 2).blk t).view.emb j)) (V c main_v17 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 128 + 1 * (j 1).val = win0_2.index t (1 : Fin 2) * 128 + 1 * (j 1).val; omega
  rw [h0, h1]

/-- An index of the output array is in point t's block iff each coordinate is in the block's range on its axis. -/
theorem mem_block (t : Fin cfg0.N) (i : S50000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v18).slice (win0_2.rect t)).set ↔ _
  rw [View.set_slice_whole, Rect.mem_set_unit]
  exact Iff.rfl

/-- The blocks tile the output array: row r is in the block of the point whose row-block index is r / 10000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := point_of_block ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE OUTPUT ARRAY when the launch ends: the entrywise product of the two input arrays as the launch found them. -/
theorem final (c : Dev nD) : (dat0 V c).arrAt 2 cfg0.N = prod (V c main_v16) (V c main_v17) :=
  (dat0 V c).arrAt_eq_of_cover 2 (prod (V c main_v16) (V c main_v17)) (fun t _ => flushed_eq V c t) (covered)

end Cert.KernelIdeal.Prod0

end
-- ==== Proof.Prod1.lean ====
/-
  The second launch of the entrywise-product kernel: what its output array holds when the launch ends.

  The launch walks a grid of 5 points; at point t each of its three windows is the block of rows
  [10000 t, 10000 t + 10000) of a [50000, 128] array, and the body stores into the output block the
  entrywise product of the two input blocks.  The three windows move together, so the block written back at
  point t is block t of the entrywise product of the two WHOLE input arrays as the launch finds them; the five
  blocks tile the output array (row r lies in block r / 10000), so the array ends holding that product.
  All of it for any contents V of the buffers at the launch's entry, and at any float instance.
-/
import proofs.«174738_j1176821039620_1_alg».proof.Proof.Gen.KernelIdeal.Frame
import Idealize.ShloMosaic.Lib.Pipeline.Value

set_option maxRecDepth 16384

noncomputable section

namespace Cert.KernelIdeal.Prod1

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's one access starts at the block's origin. -/
theorem origin_zero : (![0, 0] : Fin 2 → Nat) = fun _ => 0 := funext fun a => by fin_cases a <;> rfl

/-- The entrywise product of two [50000, 128] arrays. -/
abbrev prod (a0 a1 : S50000x128.Idx → Elt F .f32) : S50000x128.Idx → Elt F .f32 := fun i => FloatOps.mulf (a0 i) (a1 i)

/-- What the body stores is the entrywise product of the two blocks it loaded (the two casts it makes are to
    the blocks' own shape). -/
theorem body_eq (x0 x1 : Vec F S10000x128 .f32) : k1_pay1 x0 x1 = mulf x0 x1 := by
  unfold k1_pay1
  rw [shapeCast_self, shapeCast_self]

/-- The three windows' index maps agree at every grid point, the row-block index is at most 4 and the column-block
    index is 0: decided over the 5 points. -/
theorem index_maps : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) ≤ 4 ∧ win1_2.index t (1 : Fin 2) = 0 :=
  (by decide +kernel : ∀ t : Fin grid1.N, _)

/-- Every row block is some grid point's. -/
theorem point_of_block : ∀ q : Fin 5, ∃ t : Fin cfg1.N, win1_2.index t = ![q.val, 0] :=
  (by decide +kernel : ∀ q : Fin 5, ∃ t : Fin grid1.N, win1_2.index t = ![q.val, 0])

/-- What point t writes back is block t of the product of the two input arrays as the launch finds them. -/
theorem flushed_eq (c : Dev nD) (t : Fin cfg1.N) :
    (dat1 V c).flushed 2 t = ((cfg1.win 2).blk t).view.read (Elt F) (prod (V c main_v37) (V c main_v38)) := by
  show (cfg1.win 2).cut (grid1.coords t) ((dat1 V c).after 2 t) = _
  rw [after1_2]
  unfold out1_2
  rw [View.canon_unit_zero origin_zero]
  simp only [View.ld_unit_zero (S := S10000x128) origin_zero]
  rw [body_eq]
  obtain ⟨e0, e1, e2, e3, e4, e5⟩ := index_maps t
  funext j
  show FloatOps.mulf (V c main_v37 (((cfg1.win 0).blk t).view.emb j)) (V c main_v38 (((cfg1.win 1).blk t).view.emb j))
    = FloatOps.mulf (V c main_v37 (((cfg1.win 2).blk t).view.emb j)) (V c main_v38 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 128 + 1 * (j 1).val = win1_2.index t (1 : Fin 2) * 128 + 1 * (j 1).val; omega
  rw [h0, h1]

/-- An index of the output array is in point t's block iff each coordinate is in the block's range on its axis. -/
theorem mem_block (t : Fin cfg1.N) (i : S50000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v39).slice (win1_2.rect t)).set ↔ _
  rw [View.set_slice_whole, Rect.mem_set_unit]
  exact Iff.rfl

/-- The blocks tile the output array: row r is in the block of the point whose row-block index is r / 10000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := point_of_block ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- THE OUTPUT ARRAY when the launch ends: the entrywise product of the two input arrays as the launch found them. -/
theorem final (c : Dev nD) : (dat1 V c).arrAt 2 cfg1.N = prod (V c main_v37) (V c main_v38) :=
  (dat1 V c).arrAt_eq_of_cover 2 (prod (V c main_v37) (V c main_v38)) (fun t _ => flushed_eq V c t) (covered)

end Cert.KernelIdeal.Prod1

end
-- ==== Proof.Prod2.lean ====
/-
  The third launch of the entrywise-product kernel: what its output array holds when the launch ends.

  The launch walks a grid of 5 points; at point t each of its three windows is the block of rows
  [10000 t, 10000 t + 10000) of a [50000, 128] array, and the body stores into the output block the
  entrywise product of the two input blocks.  The three windows move together, so the block written back at
  point t is block t of the entrywise product of the two WHOLE input arrays as the launch finds them; the five
  blocks tile the output array (row r lies in block r / 10000), so the array ends holding that product.
  All of it for any contents V of the buffers at the launch's entry, and at any float instance.
-/
import proofs.«174738_j1176821039620_1_alg».proof.Proof.Gen.KernelIdeal.Frame
import Idealize.ShloMosaic.Lib.Pipeline.Value

set_option maxRecDepth 16384

noncomputable section

namespace Cert.KernelIdeal.Prod2

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's one access starts at the block's origin. -/
theorem origin_zero : (![0, 0] : Fin 2 → Nat) = fun _ => 0 := funext fun a => by fin_cases a <;> rfl

/-- The entrywise product of two [50000, 128] arrays. -/
abbrev prod (a0 a1 : S50000x128.Idx → Elt F .f32) : S50000x128.Idx → Elt F .f32 := fun i => FloatOps.mulf (a0 i) (a1 i)

/-- What the body stores is the entrywise product of the two blocks it loaded (the two casts it makes are to
    the blocks' own shape). -/
theorem body_eq (x0 x1 : Vec F S10000x128 .f32) : k2_pay1 x0 x1 = mulf x0 x1 := by
  unfold k2_pay1
  rw [shapeCast_self, shapeCast_self]

/-- The three windows' index maps agree at every grid point, the row-block index is at most 4 and the column-block
    index is 0: decided over the 5 points. -/
theorem index_maps : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) ≤ 4 ∧ win2_2.index t (1 : Fin 2) = 0 :=
  (by decide +kernel : ∀ t : Fin grid2.N, _)

/-- Every row block is some grid point's. -/
theorem point_of_block : ∀ q : Fin 5, ∃ t : Fin cfg2.N, win2_2.index t = ![q.val, 0] :=
  (by decide +kernel : ∀ q : Fin 5, ∃ t : Fin grid2.N, win2_2.index t = ![q.val, 0])

/-- What point t writes back is block t of the product of the two input arrays as the launch finds them. -/
theorem flushed_eq (c : Dev nD) (t : Fin cfg2.N) :
    (dat2 V c).flushed 2 t = ((cfg2.win 2).blk t).view.read (Elt F) (prod (V c main_v58) (V c main_v59)) := by
  show (cfg2.win 2).cut (grid2.coords t) ((dat2 V c).after 2 t) = _
  rw [after2_2]
  unfold out2_2
  rw [View.canon_unit_zero origin_zero]
  simp only [View.ld_unit_zero (S := S10000x128) origin_zero]
  rw [body_eq]
  obtain ⟨e0, e1, e2, e3, e4, e5⟩ := index_maps t
  funext j
  show FloatOps.mulf (V c main_v58 (((cfg2.win 0).blk t).view.emb j)) (V c main_v59 (((cfg2.win 1).blk t).view.emb j))
    = FloatOps.mulf (V c main_v58 (((cfg2.win 2).blk t).view.emb j)) (V c main_v59 (((cfg2.win 2).blk t).view.emb j))
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 128 + 1 * (j 1).val = win2_2.index t (1 : Fin 2) * 128 + 1 * (j 1).val; omega
  rw [h0, h1]

/-- An index of the output array is in point t's block iff each coordinate is in the block's range on its axis. -/
theorem mem_block (t : Fin cfg2.N) (i : S50000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v60).slice (win2_2.rect t)).set ↔ _
  rw [View.set_slice_whole, Rect.mem_set_unit]
  exact Iff.rfl

/-- The blocks tile the output array: row r is in the block of the point whose row-block index is r / 10000. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := point_of_block ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- THE OUTPUT ARRAY when the launch ends: the entrywise product of the two input arrays as the launch found them. -/
theorem final (c : Dev nD) : (dat2 V c).arrAt 2 cfg2.N = prod (V c main_v58) (V c main_v59) :=
  (dat2 V c).arrAt_eq_of_cover 2 (prod (V c main_v58) (V c main_v59)) (fun t _ => flushed_eq V c t) (covered)

end Cert.KernelIdeal.Prod2

end
-- ==== Proof.Prod3.lean ====
/-
  The fourth launch of the entrywise-product kernel: what its output array holds when the launch ends.

  The launch walks a grid of 5 points; at point t each of its three windows is the block of rows
  [10000 t, 10000 t + 10000) of a [50000, 128] array, and the body stores into the output block the
  entrywise product of the two input blocks.  The three windows move together, so the block written back at
  point t is block t of the entrywise product of the two WHOLE input arrays as the launch finds them; the five
  blocks tile the output array (row r lies in block r / 10000), so the array ends holding that product.
  All of it for any contents V of the buffers at the launch's entry, and at any float instance.
-/
import proofs.«174738_j1176821039620_1_alg».proof.Proof.Gen.KernelIdeal.Frame
import Idealize.ShloMosaic.Lib.Pipeline.Value

set_option maxRecDepth 16384

noncomputable section

namespace Cert.KernelIdeal.Prod3

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's one access starts at the block's origin. -/
theorem origin_zero : (![0, 0] : Fin 2 → Nat) = fun _ => 0 := funext fun a => by fin_cases a <;> rfl

/-- The entrywise product of two [50000, 128] arrays. -/
abbrev prod (a0 a1 : S50000x128.Idx → Elt F .f32) : S50000x128.Idx → Elt F .f32 := fun i => FloatOps.mulf (a0 i) (a1 i)

/-- What the body stores is the entrywise product of the two blocks it loaded (the two casts it makes are to
    the blocks' own shape). -/
theorem body_eq (x0 x1 : Vec F S10000x128 .f32) : k3_pay1 x0 x1 = mulf x0 x1 := by
  unfold k3_pay1
  rw [shapeCast_self, shapeCast_self]

/-- The three windows' index maps agree at every grid point, the row-block index is at most 4 and the column-block
    index is 0: decided over the 5 points. -/
theorem index_maps : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) ≤ 4 ∧ win3_2.index t (1 : Fin 2) = 0 :=
  (by decide +kernel : ∀ t : Fin grid3.N, _)

/-- Every row block is some grid point's. -/
theorem point_of_block : ∀ q : Fin 5, ∃ t : Fin cfg3.N, win3_2.index t = ![q.val, 0] :=
  (by decide +kernel : ∀ q : Fin 5, ∃ t : Fin grid3.N, win3_2.index t = ![q.val, 0])

/-- What point t writes back is block t of the product of the two input arrays as the launch finds them. -/
theorem flushed_eq (c : Dev nD) (t : Fin cfg3.N) :
    (dat3 V c).flushed 2 t = ((cfg3.win 2).blk t).view.read (Elt F) (prod (V c main_v79) (V c main_v80)) := by
  show (cfg3.win 2).cut (grid3.coords t) ((dat3 V c).after 2 t) = _
  rw [after3_2]
  unfold out3_2
  rw [View.canon_unit_zero origin_zero]
  simp only [View.ld_unit_zero (S := S10000x128) origin_zero]
  rw [body_eq]
  obtain ⟨e0, e1, e2, e3, e4, e5⟩ := index_maps t
  funext j
  show FloatOps.mulf (V c main_v79 (((cfg3.win 0).blk t).view.emb j)) (V c main_v80 (((cfg3.win 1).blk t).view.emb j))
    = FloatOps.mulf (V c main_v79 (((cfg3.win 2).blk t).view.emb j)) (V c main_v80 (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb j = ((cfg3.win 2).blk t).view.emb j := by
    funext a; apply Fin.ext
    match a with
    | ⟨0, _⟩ => show win3_1.index t (0 : Fin 2) * 10000 + 1 * (j 0).val = win3_2.index t (0 : Fin 2) * 10000 + 1 * (j 0).val; omega
    | ⟨1, _⟩ => show win3_1.index t (1 : Fin 2) * 128 + 1 * (j 1).val = win3_2.index t (1 : Fin 2) * 128 + 1 * (j 1).val; omega
  rw [h0, h1]

/-- An index of the output array is in point t's block iff each coordinate is in the block's range on its axis. -/
theorem mem_block (t : Fin cfg3.N) (i : S50000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v81).slice (win3_2.rect t)).set ↔ _
  rw [View.set_slice_whole, Rect.mem_set_unit]
  exact Iff.rfl

/-- The blocks tile the output array: row r is in the block of the point whose row-block index is r / 10000. -/
theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := point_of_block ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- THE OUTPUT ARRAY when the launch ends: the entrywise product of the two input arrays as the launch found them. -/
theorem final (c : Dev nD) : (dat3 V c).arrAt 2 cfg3.N = prod (V c main_v79) (V c main_v80) :=
  (dat3 V c).arrAt_eq_of_cover 2 (prod (V c main_v79) (V c main_v80)) (fun t _ => flushed_eq V c t) (covered)

end Cert.KernelIdeal.Prod3

end
-- ==== Proof.Host0.lean ====
/-
  The host operations before the first launch, applied to any buffer contents Wb.

  They cut the edge array into its source row and its destination row, scale x by the first step weight, and
  prepare the first launch's two operands: the node values gathered at the (normalised) sources and the edge
  weights, each re-laid as [50000, 128].  Each buffer the later segments read is stated as the operations' term
  of the argument buffers' contents in Wb; the argument buffers themselves are not written.
-/
import proofs.«174738_j1176821039620_1_alg».proof.Proof.Gen.KernelIdeal.Launch
import proofs.«174738_j1176821039620_1_alg».proof.Proof.Spec
import Idealize.ShloMosaic.Lib.StableHlo.Run

set_option maxRecDepth 16384

noncomputable section

namespace Cert.KernelIdeal.Host0

open Cert.KernelIdeal Cert.KernelIdeal.Gen Cert.MsgPass
open Idealize.ShloMosaic Idealize.ShloMosaic.TcCoe Idealize.SL.Sem Idealize.ShloMosaic.StableHlo

-- the buffer contents the stretch starts from: any
variable (Wb : Valuation τ sig (Elt Ideal))

theorem v16 : after (hostOps0 (F := Ideal)) Wb (Proc.devRef .tc main_v16)
    = gathered (Wb (Proc.devRef .tc main_arg0)) (srcRaw (Wb (Proc.devRef .tc main_arg1))) := by
  after_results; rfl

theorem v17 : after (hostOps0 (F := Ideal)) Wb (Proc.devRef .tc main_v17) = probs (Wb (Proc.devRef .tc main_arg2)) := by
  after_results; rfl

theorem v7 : after (hostOps0 (F := Ideal)) Wb (Proc.devRef .tc main_v7)
    = mulf (wt0 (Wb (Proc.devRef .tc main_arg3))) (Wb (Proc.devRef .tc main_arg0)) := by
  after_results; rfl

theorem v1 : after (hostOps0 (F := Ideal)) Wb (Proc.devRef .tc main_v1) = srcRaw (Wb (Proc.devRef .tc main_arg1)) := by
  after_results; rfl

theorem v3 : after (hostOps0 (F := Ideal)) Wb (Proc.devRef .tc main_v3) = dstRaw (Wb (Proc.devRef .tc main_arg1)) := by
  after_results; rfl

theorem arg2 : after (hostOps0 (F := Ideal)) Wb (Proc.devRef .tc main_arg2) = Wb (Proc.devRef .tc main_arg2) := by
  after_results

theorem arg3 : after (hostOps0 (F := Ideal)) Wb (Proc.devRef .tc main_arg3) = Wb (Proc.devRef .tc main_arg3) := by
  after_results

end Cert.KernelIdeal.Host0

end
-- ==== Proof.Host1.lean ====
/-
  The host operations between the first and the second launch, applied to any buffer contents Wb.

  They finish one step and begin the next: the launch's entrywise product is re-laid as a vector over the edges,
  scatter-added into a zero node vector at the destinations and made a column (the next node vector); that column,
  scaled by its step weight, is added to the running sum; and the next launch's two operands are prepared from
  it as before.  Each buffer the later segments read is stated as the operations' term of the contents in Wb of the
  buffers the stretch reads; the source row, the destination row and the argument buffers are not written.
-/
import proofs.«174738_j1176821039620_1_alg».proof.Proof.Gen.KernelIdeal.Launch
import proofs.«174738_j1176821039620_1_alg».proof.Proof.Spec
import Idealize.ShloMosaic.Lib.StableHlo.Run

set_option maxRecDepth 16384

noncomputable section

namespace Cert.KernelIdeal.Host1

open Cert.KernelIdeal Cert.KernelIdeal.Gen Cert.MsgPass
open Idealize.ShloMosaic Idealize.ShloMosaic.TcCoe Idealize.SL.Sem Idealize.ShloMosaic.StableHlo

-- the buffer contents the stretch starts from: any
variable (Wb : Valuation τ sig (Elt Ideal))

theorem v37 : after (hostOps1 (F := Ideal)) Wb (Proc.devRef .tc main_v37)
    = gathered (scattered (Wb (Proc.devRef .tc main_v18)) (Wb (Proc.devRef .tc main_v3))) (Wb (Proc.devRef .tc main_v1)) := by
  after_results_simp <;> rfl

theorem v38 : after (hostOps1 (F := Ideal)) Wb (Proc.devRef .tc main_v38) = probs (Wb (Proc.devRef .tc main_arg2)) := by
  after_results_simp <;> rfl

theorem v28 : after (hostOps1 (F := Ideal)) Wb (Proc.devRef .tc main_v28)
    = addf (Wb (Proc.devRef .tc main_v7))
        (mulf (wt1 (Wb (Proc.devRef .tc main_arg3))) (scattered (Wb (Proc.devRef .tc main_v18)) (Wb (Proc.devRef .tc main_v3)))) := by
  after_results_simp <;> rfl

theorem v1 : after (hostOps1 (F := Ideal)) Wb (Proc.devRef .tc main_v1) = Wb (Proc.devRef .tc main_v1) := by
  after_results_simp <;> rfl

theorem v3 : after (hostOps1 (F := Ideal)) Wb (Proc.devRef .tc main_v3) = Wb (Proc.devRef .tc main_v3) := by
  after_results_simp <;> rfl

theorem arg2 : after (hostOps1 (F := Ideal)) Wb (Proc.devRef .tc main_arg2) = Wb (Proc.devRef .tc main_arg2) := by
  after_results_simp <;> rfl

theorem arg3 : after (hostOps1 (F := Ideal)) Wb (Proc.devRef .tc main_arg3) = Wb (Proc.devRef .tc main_arg3) := by
  after_results_simp <;> rfl

end Cert.KernelIdeal.Host1

end
-- ==== Proof.Host2.lean ====
/-
  The host operations between the second and the third launch, applied to any buffer contents Wb.

  They finish one step and begin the next: the launch's entrywise product is re-laid as a vector over the edges,
  scatter-added into a zero node vector at the destinations and made a column (the next node vector); that column,
  scaled by its step weight, is added to the running sum; and the next launch's two operands are prepared from
  it as before.  Each buffer the later segments read is stated as the operations' term of the contents in Wb of the
  buffers the stretch reads; the source row, the destination row and the argument buffers are not written.
-/
import proofs.«174738_j1176821039620_1_alg».proof.Proof.Gen.KernelIdeal.Launch
import proofs.«174738_j1176821039620_1_alg».proof.Proof.Spec
import Idealize.ShloMosaic.Lib.StableHlo.Run

set_option maxRecDepth 16384

noncomputable section

namespace Cert.KernelIdeal.Host2

open Cert.KernelIdeal Cert.KernelIdeal.Gen Cert.MsgPass
open Idealize.ShloMosaic Idealize.ShloMosaic.TcCoe Idealize.SL.Sem Idealize.ShloMosaic.StableHlo

-- the buffer contents the stretch starts from: any
variable (Wb : Valuation τ sig (Elt Ideal))

theorem v58 : after (hostOps2 (F := Ideal)) Wb (Proc.devRef .tc main_v58)
    = gathered (scattered (Wb (Proc.devRef .tc main_v39)) (Wb (Proc.devRef .tc main_v3))) (Wb (Proc.devRef .tc main_v1)) := by
  after_results_simp <;> rfl

theorem v59 : after (hostOps2 (F := Ideal)) Wb (Proc.devRef .tc main_v59) = probs (Wb (Proc.devRef .tc main_arg2)) := by
  after_results_simp <;> rfl

theorem v49 : after (hostOps2 (F := Ideal)) Wb (Proc.devRef .tc main_v49)
    = addf (Wb (Proc.devRef .tc main_v28))
        (mulf (wt2 (Wb (Proc.devRef .tc main_arg3))) (scattered (Wb (Proc.devRef .tc main_v39)) (Wb (Proc.devRef .tc main_v3)))) := by
  after_results_simp <;> rfl

theorem v1 : after (hostOps2 (F := Ideal)) Wb (Proc.devRef .tc main_v1) = Wb (Proc.devRef .tc main_v1) := by
  after_results_simp <;> rfl

theorem v3 : after (hostOps2 (F := Ideal)) Wb (Proc.devRef .tc main_v3) = Wb (Proc.devRef .tc main_v3) := by
  after_results_simp <;> rfl

theorem arg2 : after (hostOps2 (F := Ideal)) Wb (Proc.devRef .tc main_arg2) = Wb (Proc.devRef .tc main_arg2) := by
  after_results_simp <;> rfl

theorem arg3 : after (hostOps2 (F := Ideal)) Wb (Proc.devRef .tc main_arg3) = Wb (Proc.devRef .tc main_arg3) := by
  after_results_simp <;> rfl

end Cert.KernelIdeal.Host2

end
-- ==== Proof.Host3.lean ====
/-
  The host operations between the third and the fourth launch, applied to any buffer contents Wb.

  They finish one step and begin the next: the launch's entrywise product is re-laid as a vector over the edges,
  scatter-added into a zero node vector at the destinations and made a column (the next node vector); that column,
  scaled by its step weight, is added to the running sum; and the next launch's two operands are prepared from
  it as before.  Each buffer the later segments read is stated as the operations' term of the contents in Wb of the
  buffers the stretch reads; the source row, the destination row and the argument buffers are not written.
-/
import proofs.«174738_j1176821039620_1_alg».proof.Proof.Gen.KernelIdeal.Launch
import proofs.«174738_j1176821039620_1_alg».proof.Proof.Spec
import Idealize.ShloMosaic.Lib.StableHlo.Run

set_option maxRecDepth 16384

noncomputable section

namespace Cert.KernelIdeal.Host3

open Cert.KernelIdeal Cert.KernelIdeal.Gen Cert.MsgPass
open Idealize.ShloMosaic Idealize.ShloMosaic.TcCoe Idealize.SL.Sem Idealize.ShloMosaic.StableHlo

-- the buffer contents the stretch starts from: any
variable (Wb : Valuation τ sig (Elt Ideal))

theorem v79 : after (hostOps3 (F := Ideal)) Wb (Proc.devRef .tc main_v79)
    = gathered (scattered (Wb (Proc.devRef .tc main_v60)) (Wb (Proc.devRef .tc main_v3))) (Wb (Proc.devRef .tc main_v1)) := by
  after_results_simp <;> rfl

theorem v80 : after (hostOps3 (F := Ideal)) Wb (Proc.devRef .tc main_v80) = probs (Wb (Proc.devRef .tc main_arg2)) := by
  after_results_simp <;> rfl

theorem v70 : after (hostOps3 (F := Ideal)) Wb (Proc.devRef .tc main_v70)
    = addf (Wb (Proc.devRef .tc main_v49))
        (mulf (wt3 (Wb (Proc.devRef .tc main_arg3))) (scattered (Wb (Proc.devRef .tc main_v60)) (Wb (Proc.devRef .tc main_v3)))) := by
  after_results_simp <;> rfl

theorem v1 : after (hostOps3 (F := Ideal)) Wb (Proc.devRef .tc main_v1) = Wb (Proc.devRef .tc main_v1) := by
  after_results_simp <;> rfl

theorem v3 : after (hostOps3 (F := Ideal)) Wb (Proc.devRef .tc main_v3) = Wb (Proc.devRef .tc main_v3) := by
  after_results_simp <;> rfl

theorem arg2 : after (hostOps3 (F := Ideal)) Wb (Proc.devRef .tc main_arg2) = Wb (Proc.devRef .tc main_arg2) := by
  after_results_simp <;> rfl

theorem arg3 : after (hostOps3 (F := Ideal)) Wb (Proc.devRef .tc main_arg3) = Wb (Proc.devRef .tc main_arg3) := by
  after_results_simp <;> rfl

end Cert.KernelIdeal.Host3

end
-- ==== Proof.Host4.lean ====
/-
  The host operations after the last launch, applied to any buffer contents Wb.

  The last launch's entrywise product is re-laid as a vector over the edges, scatter-added into a zero node vector
  at the destinations and made a column; that column, scaled by the last step weight, is added to the running sum:
  the program's result.
-/
import proofs.«174738_j1176821039620_1_alg».proof.Proof.Gen.KernelIdeal.Launch
import proofs.«174738_j1176821039620_1_alg».proof.Proof.Spec
import Idealize.ShloMosaic.Lib.StableHlo.Run

set_option maxRecDepth 16384

noncomputable section

namespace Cert.KernelIdeal.Host4

open Cert.KernelIdeal Cert.KernelIdeal.Gen Cert.MsgPass
open Idealize.ShloMosaic Idealize.ShloMosaic.TcCoe Idealize.SL.Sem Idealize.ShloMosaic.StableHlo

-- the buffer contents the stretch starts from: any
variable (Wb : Valuation τ sig (Elt Ideal))

theorem v91 : after (hostOps4 (F := Ideal)) Wb (Proc.devRef .tc main_v91)
    = addf (Wb (Proc.devRef .tc main_v70))
        (mulf (wt4 (Wb (Proc.devRef .tc main_arg3))) (scattered (Wb (Proc.devRef .tc main_v81)) (Wb (Proc.devRef .tc main_v3)))) := by
  after_results; rfl

end Cert.KernelIdeal.Host4

end
-- ==== Proof.KernelValue.lean ====
/-
  The idealized kernel program's result as a function of its argument arrays.

  The buffer contents at the nine segment boundaries are a fold through @main from the launch memory.  Walking it:
  a host stretch applies its operations to the boundary before it; a launch of the entrywise-product kernel leaves
  its output array at the product of its two operands and every other buffer as entered.  Written with
      step cur = scatter-add over the edges of (cur gathered at the sources) * (edge weights)      (the flat step)
  the boundaries hold, at the buffers later segments read:
    before launch k (k = 0 … 3): the two operands  gathered (step^k x)  and  probs p,  the running sum
      w0 x + … + wk step^k x,  the source row, the destination row, p and w;
    after launch k: the product of the two operands, the rest as before;
    at the end: the running sum with the last term added, which is the weighted sum of x and its four successive
      images under the flat step.
-/
import proofs.«174738_j1176821039620_1_alg».proof.Proof.Gen.KernelIdeal.Frame
import proofs.«174738_j1176821039620_1_alg».proof.Proof.Spec
import proofs.«174738_j1176821039620_1_alg».proof.Proof.Prod0
import proofs.«174738_j1176821039620_1_alg».proof.Proof.Prod1
import proofs.«174738_j1176821039620_1_alg».proof.Proof.Prod2
import proofs.«174738_j1176821039620_1_alg».proof.Proof.Prod3
import proofs.«174738_j1176821039620_1_alg».proof.Proof.Host0
import proofs.«174738_j1176821039620_1_alg».proof.Proof.Host1
import proofs.«174738_j1176821039620_1_alg».proof.Proof.Host2
import proofs.«174738_j1176821039620_1_alg».proof.Proof.Host3
import proofs.«174738_j1176821039620_1_alg».proof.Proof.Host4

set_option maxRecDepth 16384

noncomputable section

namespace Cert.KernelIdeal.Chain

open Cert.KernelIdeal Cert.KernelIdeal.Gen Cert.MsgPass
open Idealize.ShloMosaic Idealize.ShloMosaic.TcCoe Idealize.SL.Sem

variable (m : (ℓ : Loc nD τ sig) → Buf (Elt Ideal) ℓ) (ρ : Dev nD → PrngReg) (c : Dev nD)

/-- The launch contents of the four arguments. -/
abbrev x0 : FVec Ideal S100000x1 .f32 := m ((c.tc : Thread nD τ).loc main_arg0)
abbrev edges : IVec S2x6400000 32 := m ((c.tc : Thread nD τ).loc main_arg1)
abbrev wts : FVec Ideal S6400000 .f32 := m ((c.tc : Thread nD τ).loc main_arg2)
abbrev stepWts : FVec Ideal S5 .f32 := m ((c.tc : Thread nD τ).loc main_arg3)

/-- The flat step at this program's edges and weights. -/
abbrev stp : FVec Ideal S100000x1 .f32 → FVec Ideal S100000x1 .f32 :=
  stepFlat (srcRaw (edges m c)) (dstRaw (edges m c)) (wts m c)

/-- The entrywise product a launch leaves is the product the step is written with. -/
theorem prod_step (cur : FVec Ideal S100000x1 .f32) :
    scattered (mulf (gathered cur (srcRaw (edges m c))) (probs (wts m c))) (dstRaw (edges m c)) = stp m c cur := rfl

/-! ## Before the first launch -/

theorem b1_v16 : W1 m ρ c (Proc.devRef .tc main_v16) = gathered (x0 m c) (srcRaw (edges m c)) := Host0.v16 (W0 m ρ c)
theorem b1_v17 : W1 m ρ c (Proc.devRef .tc main_v17) = probs (wts m c) := Host0.v17 (W0 m ρ c)
theorem b1_v7 : W1 m ρ c (Proc.devRef .tc main_v7) = mulf (wt0 (stepWts m c)) (x0 m c) := Host0.v7 (W0 m ρ c)
theorem b1_v1 : W1 m ρ c (Proc.devRef .tc main_v1) = srcRaw (edges m c) := Host0.v1 (W0 m ρ c)
theorem b1_v3 : W1 m ρ c (Proc.devRef .tc main_v3) = dstRaw (edges m c) := Host0.v3 (W0 m ρ c)
theorem b1_arg2 : W1 m ρ c (Proc.devRef .tc main_arg2) = wts m c := Host0.arg2 (W0 m ρ c)
theorem b1_arg3 : W1 m ρ c (Proc.devRef .tc main_arg3) = stepWts m c := Host0.arg3 (W0 m ρ c)

/-! ## After the first launch -/

theorem b2_v18 : W2 m ρ c (Proc.devRef .tc main_v18)
    = mulf (gathered (x0 m c) (srcRaw (edges m c))) (probs (wts m c)) := by
  refine (W2_arr m ρ c 2).trans ((Prod0.final (V1 m ρ) c).trans ?_)
  rw [show V1 m ρ c main_v16 = _ from b1_v16 m ρ c, show V1 m ρ c main_v17 = _ from b1_v17 m ρ c]
  rfl
theorem b2_v7 : W2 m ρ c (Proc.devRef .tc main_v7) = mulf (wt0 (stepWts m c)) (x0 m c) :=
  (W2_of_ne m ρ c main_v7 (by decide)).trans (b1_v7 m ρ c)
theorem b2_v1 : W2 m ρ c (Proc.devRef .tc main_v1) = srcRaw (edges m c) :=
  (W2_of_ne m ρ c main_v1 (by decide)).trans (b1_v1 m ρ c)
theorem b2_v3 : W2 m ρ c (Proc.devRef .tc main_v3) = dstRaw (edges m c) :=
  (W2_of_ne m ρ c main_v3 (by decide)).trans (b1_v3 m ρ c)
theorem b2_arg2 : W2 m ρ c (Proc.devRef .tc main_arg2) = wts m c :=
  (W2_of_ne m ρ c main_arg2 (by decide)).trans (b1_arg2 m ρ c)
theorem b2_arg3 : W2 m ρ c (Proc.devRef .tc main_arg3) = stepWts m c :=
  (W2_of_ne m ρ c main_arg3 (by decide)).trans (b1_arg3 m ρ c)

/-! ## Before the second launch -/

theorem b3_v37 : W3 m ρ c (Proc.devRef .tc main_v37) = gathered (stp m c (x0 m c)) (srcRaw (edges m c)) := by
  refine (Host1.v37 (W2 m ρ c)).trans ?_
  rw [b2_v18, b2_v3, b2_v1, prod_step]
theorem b3_v38 : W3 m ρ c (Proc.devRef .tc main_v38) = probs (wts m c) := by
  refine (Host1.v38 (W2 m ρ c)).trans ?_
  rw [b2_arg2]
theorem b3_v28 : W3 m ρ c (Proc.devRef .tc main_v28)
    = addf (mulf (wt0 (stepWts m c)) (x0 m c)) (mulf (wt1 (stepWts m c)) (stp m c (x0 m c))) := by
  refine (Host1.v28 (W2 m ρ c)).trans ?_
  rw [b2_v18, b2_v3, b2_v7, b2_arg3, prod_step]
theorem b3_v1 : W3 m ρ c (Proc.devRef .tc main_v1) = srcRaw (edges m c) := (Host1.v1 (W2 m ρ c)).trans (b2_v1 m ρ c)
theorem b3_v3 : W3 m ρ c (Proc.devRef .tc main_v3) = dstRaw (edges m c) := (Host1.v3 (W2 m ρ c)).trans (b2_v3 m ρ c)
theorem b3_arg2 : W3 m ρ c (Proc.devRef .tc main_arg2) = wts m c := (Host1.arg2 (W2 m ρ c)).trans (b2_arg2 m ρ c)
theorem b3_arg3 : W3 m ρ c (Proc.devRef .tc main_arg3) = stepWts m c := (Host1.arg3 (W2 m ρ c)).trans (b2_arg3 m ρ c)

/-! ## After the second launch -/

theorem b4_v39 : W4 m ρ c (Proc.devRef .tc main_v39)
    = mulf (gathered (stp m c (x0 m c)) (srcRaw (edges m c))) (probs (wts m c)) := by
  refine (W4_arr m ρ c 2).trans ((Prod1.final (V3 m ρ) c).trans ?_)
  rw [show V3 m ρ c main_v37 = _ from b3_v37 m ρ c, show V3 m ρ c main_v38 = _ from b3_v38 m ρ c]
  rfl
theorem b4_v28 : W4 m ρ c (Proc.devRef .tc main_v28)
    = addf (mulf (wt0 (stepWts m c)) (x0 m c)) (mulf (wt1 (stepWts m c)) (stp m c (x0 m c))) :=
  (W4_of_ne m ρ c main_v28 (by decide)).trans (b3_v28 m ρ c)
theorem b4_v1 : W4 m ρ c (Proc.devRef .tc main_v1) = srcRaw (edges m c) :=
  (W4_of_ne m ρ c main_v1 (by decide)).trans (b3_v1 m ρ c)
theorem b4_v3 : W4 m ρ c (Proc.devRef .tc main_v3) = dstRaw (edges m c) :=
  (W4_of_ne m ρ c main_v3 (by decide)).trans (b3_v3 m ρ c)
theorem b4_arg2 : W4 m ρ c (Proc.devRef .tc main_arg2) = wts m c :=
  (W4_of_ne m ρ c main_arg2 (by decide)).trans (b3_arg2 m ρ c)
theorem b4_arg3 : W4 m ρ c (Proc.devRef .tc main_arg3) = stepWts m c :=
  (W4_of_ne m ρ c main_arg3 (by decide)).trans (b3_arg3 m ρ c)

/-! ## Before the third launch -/

theorem b5_v58 : W5 m ρ c (Proc.devRef .tc main_v58)
    = gathered (stp m c (stp m c (x0 m c))) (srcRaw (edges m c)) := by
  refine (Host2.v58 (W4 m ρ c)).trans ?_
  rw [b4_v39, b4_v3, b4_v1, prod_step]
theorem b5_v59 : W5 m ρ c (Proc.devRef .tc main_v59) = probs (wts m c) := by
  refine (Host2.v59 (W4 m ρ c)).trans ?_
  rw [b4_arg2]
theorem b5_v49 : W5 m ρ c (Proc.devRef .tc main_v49)
    = addf (addf (mulf (wt0 (stepWts m c)) (x0 m c)) (mulf (wt1 (stepWts m c)) (stp m c (x0 m c))))
        (mulf (wt2 (stepWts m c)) (stp m c (stp m c (x0 m c)))) := by
  refine (Host2.v49 (W4 m ρ c)).trans ?_
  rw [b4_v39, b4_v3, b4_v28, b4_arg3, prod_step]
theorem b5_v1 : W5 m ρ c (Proc.devRef .tc main_v1) = srcRaw (edges m c) := (Host2.v1 (W4 m ρ c)).trans (b4_v1 m ρ c)
theorem b5_v3 : W5 m ρ c (Proc.devRef .tc main_v3) = dstRaw (edges m c) := (Host2.v3 (W4 m ρ c)).trans (b4_v3 m ρ c)
theorem b5_arg2 : W5 m ρ c (Proc.devRef .tc main_arg2) = wts m c := (Host2.arg2 (W4 m ρ c)).trans (b4_arg2 m ρ c)
theorem b5_arg3 : W5 m ρ c (Proc.devRef .tc main_arg3) = stepWts m c := (Host2.arg3 (W4 m ρ c)).trans (b4_arg3 m ρ c)

/-! ## After the third launch -/

theorem b6_v60 : W6 m ρ c (Proc.devRef .tc main_v60)
    = mulf (gathered (stp m c (stp m c (x0 m c))) (srcRaw (edges m c))) (probs (wts m c)) := by
  refine (W6_arr m ρ c 2).trans ((Prod2.final (V5 m ρ) c).trans ?_)
  rw [show V5 m ρ c main_v58 = _ from b5_v58 m ρ c, show V5 m ρ c main_v59 = _ from b5_v59 m ρ c]
  rfl
theorem b6_v49 : W6 m ρ c (Proc.devRef .tc main_v49)
    = addf (addf (mulf (wt0 (stepWts m c)) (x0 m c)) (mulf (wt1 (stepWts m c)) (stp m c (x0 m c))))
        (mulf (wt2 (stepWts m c)) (stp m c (stp m c (x0 m c)))) :=
  (W6_of_ne m ρ c main_v49 (by decide)).trans (b5_v49 m ρ c)
theorem b6_v1 : W6 m ρ c (Proc.devRef .tc main_v1) = srcRaw (edges m c) :=
  (W6_of_ne m ρ c main_v1 (by decide)).trans (b5_v1 m ρ c)
theorem b6_v3 : W6 m ρ c (Proc.devRef .tc main_v3) = dstRaw (edges m c) :=
  (W6_of_ne m ρ c main_v3 (by decide)).trans (b5_v3 m ρ c)
theorem b6_arg2 : W6 m ρ c (Proc.devRef .tc main_arg2) = wts m c :=
  (W6_of_ne m ρ c main_arg2 (by decide)).trans (b5_arg2 m ρ c)
theorem b6_arg3 : W6 m ρ c (Proc.devRef .tc main_arg3) = stepWts m c :=
  (W6_of_ne m ρ c main_arg3 (by decide)).trans (b5_arg3 m ρ c)

/-! ## Before the fourth launch -/

theorem b7_v79 : W7 m ρ c (Proc.devRef .tc main_v79)
    = gathered (stp m c (stp m c (stp m c (x0 m c)))) (srcRaw (edges m c)) := by
  refine (Host3.v79 (W6 m ρ c)).trans ?_
  rw [b6_v60, b6_v3, b6_v1, prod_step]
theorem b7_v80 : W7 m ρ c (Proc.devRef .tc main_v80) = probs (wts m c) := by
  refine (Host3.v80 (W6 m ρ c)).trans ?_
  rw [b6_arg2]
theorem b7_v70 : W7 m ρ c (Proc.devRef .tc main_v70)
    = addf (addf (addf (mulf (wt0 (stepWts m c)) (x0 m c)) (mulf (wt1 (stepWts m c)) (stp m c (x0 m c))))
        (mulf (wt2 (stepWts m c)) (stp m c (stp m c (x0 m c)))))
        (mulf (wt3 (stepWts m c)) (stp m c (stp m c (stp m c (x0 m c))))) := by
  refine (Host3.v70 (W6 m ρ c)).trans ?_
  rw [b6_v60, b6_v3, b6_v49, b6_arg3, prod_step]
theorem b7_v3 : W7 m ρ c (Proc.devRef .tc main_v3) = dstRaw (edges m c) := (Host3.v3 (W6 m ρ c)).trans (b6_v3 m ρ c)
theorem b7_arg3 : W7 m ρ c (Proc.devRef .tc main_arg3) = stepWts m c := (Host3.arg3 (W6 m ρ c)).trans (b6_arg3 m ρ c)

/-! ## After the fourth launch -/

theorem b8_v81 : W8 m ρ c (Proc.devRef .tc main_v81)
    = mulf (gathered (stp m c (stp m c (stp m c (x0 m c)))) (srcRaw (edges m c))) (probs (wts m c)) := by
  refine (W8_arr m ρ c 2).trans ((Prod3.final (V7 m ρ) c).trans ?_)
  rw [show V7 m ρ c main_v79 = _ from b7_v79 m ρ c, show V7 m ρ c main_v80 = _ from b7_v80 m ρ c]
  rfl
theorem b8_v70 : W8 m ρ c (Proc.devRef .tc main_v70)
    = addf (addf (addf (mulf (wt0 (stepWts m c)) (x0 m c)) (mulf (wt1 (stepWts m c)) (stp m c (x0 m c))))
        (mulf (wt2 (stepWts m c)) (stp m c (stp m c (x0 m c)))))
        (mulf (wt3 (stepWts m c)) (stp m c (stp m c (stp m c (x0 m c))))) :=
  (W8_of_ne m ρ c main_v70 (by decide)).trans (b7_v70 m ρ c)
theorem b8_v3 : W8 m ρ c (Proc.devRef .tc main_v3) = dstRaw (edges m c) :=
  (W8_of_ne m ρ c main_v3 (by decide)).trans (b7_v3 m ρ c)
theorem b8_arg3 : W8 m ρ c (Proc.devRef .tc main_arg3) = stepWts m c :=
  (W8_of_ne m ρ c main_arg3 (by decide)).trans (b7_arg3 m ρ c)

/-! ## At the end -/

/-- THE RESULT: the weighted sum of x and its four successive images under the flat step. -/
theorem result : W9 m ρ c (Proc.devRef .tc main_v91) = combine (stp m c) (x0 m c) (stepWts m c) := by
  refine (Host4.v91 (W8 m ρ c)).trans ?_
  rw [b8_v81, b8_v3, b8_v70, b8_arg3, prod_step]
  rfl

end Cert.KernelIdeal.Chain

end
-- ==== Proof.RefValue.lean ====
/-
  The reference program's result as a function of its argument arrays.

  The reference's run ends with its result at the composed term of its 85 host operations.  That term is, operation
  for operation, the weighted sum of x and its four successive images under the step written by rows: the same
  slices, casts, comparisons, selections, gathers, products, scatter-adds, sums, with the same literals.
-/
import proofs.«174738_j1176821039620_1_alg».proof.Proof.Gen.KernelIdeal
import proofs.«174738_j1176821039620_1_alg».proof.Proof.Gen.ReferenceIdeal.Run
import proofs.«174738_j1176821039620_1_alg».proof.Proof.Spec

set_option maxRecDepth 16384

noncomputable section

namespace Cert.ReferenceIdeal.RefValue

open Cert.ReferenceIdeal Cert.ReferenceIdeal.Gen Cert.MsgPass
open Idealize.ShloMosaic Idealize.ShloMosaic.TcCoe Idealize.SL.Sem

/-- The reference run's result term is the weighted sum over the row step, of the launch contents of the four
    arguments. -/
theorem result_eq (m : (ℓ : Loc nD τ sig) → Buf (Elt Ideal) ℓ) (c : Dev nD) :
    Cert.ReferenceIdeal.Value.res_main_v72 (F := Ideal) m c
      = combine (stepRows (srcRaw (m ((c.tc : Thread nD τ).loc main_arg1))) (dstRaw (m ((c.tc : Thread nD τ).loc main_arg1)))
          (m ((c.tc : Thread nD τ).loc main_arg2)))
        (m ((c.tc : Thread nD τ).loc main_arg0)) (m ((c.tc : Thread nD τ).loc main_arg3)) := by
  unfold Cert.ReferenceIdeal.Value.res_main_v72 combine stepRows
  rfl

end Cert.ReferenceIdeal.RefValue

end
-- ==== Proof.lean ====
/-
  Message passing over a graph, x + A x + A² x + A³ x + A⁴ x weighted by w, computed two ways.

  x : [N, 1] are node values, the [2, E] integer array holds each edge's source and destination, p : [E] the edge
  weights, w : [5] the step weights (N = 100000, E = 6400000).  One step A sends a node vector cur to the vector whose
  entry n is the sum over the edges e into n of cur[source e] * p e.  Both programs return
      w0 x + w1 A x + w2 A² x + w3 A³ x + w4 A⁴ x.
  The reference gathers rows of the [N, 1] column, multiplies by p as a column and scatter-adds rows.  The kernel
  program gathers from the column re-laid as a vector, runs the product p * gathered in a tiled kernel over the
  edges re-laid as [50000, 128] (five blocks of 10000 rows), re-lays the product back and scatter-adds into a vector.

  Over the extended reals the two are the same function, with no condition on the inputs: re-laying keeps every
  entry, the tiled product is the entrywise product of the whole arrays (the blocks tile the array), and a gather
  or a scatter-add of a one-column matrix by rows is the gather or scatter-add of the vector.  So one step is the
  same function in both spellings, and the outer weighted sum is spelt identically.

  The kernel program's three frames come from the generated frame proofs; its value is read off the fold of its
  nine segments (five host stretches, four launches); the reference's run is the generated one.  Nothing was
  rewritten when the kernel program was idealized, so that conjunct is trivial.
-/
import proofs.«174738_j1176821039620_1_alg».proof.Defs
import proofs.«174738_j1176821039620_1_alg».proof.Proof.Gen.Kernel
import proofs.«174738_j1176821039620_1_alg».proof.Proof.Gen.Kernel.Skeleton
import proofs.«174738_j1176821039620_1_alg».proof.Proof.Gen.Kernel.Launch
import proofs.«174738_j1176821039620_1_alg».proof.Proof.Gen.Kernel.Points
import proofs.«174738_j1176821039620_1_alg».proof.Proof.Gen.Kernel.Frame
import proofs.«174738_j1176821039620_1_alg».proof.Proof.Gen.KernelIdeal
import proofs.«174738_j1176821039620_1_alg».proof.Proof.Gen.KernelIdeal.Skeleton
import proofs.«174738_j1176821039620_1_alg».proof.Proof.Gen.KernelIdeal.Launch
import proofs.«174738_j1176821039620_1_alg».proof.Proof.Gen.KernelIdeal.Points
import proofs.«174738_j1176821039620_1_alg».proof.Proof.Gen.KernelIdeal.Frame
import proofs.«174738_j1176821039620_1_alg».proof.Proof.Gen.ReferenceIdeal
import proofs.«174738_j1176821039620_1_alg».proof.Proof.Gen.Pre_finite_inputs
import proofs.«174738_j1176821039620_1_alg».proof.Proof.Gen.ReferenceIdeal.Run
import proofs.«174738_j1176821039620_1_alg».proof.Proof.Spec
import proofs.«174738_j1176821039620_1_alg».proof.Proof.StepEq
import proofs.«174738_j1176821039620_1_alg».proof.Proof.KernelRun
import proofs.«174738_j1176821039620_1_alg».proof.Proof.KernelValue
import proofs.«174738_j1176821039620_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the four arguments, both programs end with the weighted sum of x and its four
    successive images under one step: the kernel program's step is the flat one, the reference's the one by rows, and
    they are one function. -/
theorem algebraic : Cert.algebraic_KernelIdeal_ReferenceIdeal := by
  intro m ρ m' ρ' _ hagree
  refine ⟨fun c => Cert.MsgPass.combine (Cert.KernelIdeal.Chain.stp m c) (Cert.KernelIdeal.Chain.x0 m c)
    (Cert.KernelIdeal.Chain.stepWts m c), ?_, ?_⟩
  · exact (θ_run Cert.KernelIdeal.defs _ _).mono
      (fun r h c => ⟨(h c).1.trans (Cert.KernelIdeal.Chain.result m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2]
    exact congrArg (fun st => Cert.MsgPass.combine st _ _)
      (funext fun cur => (Cert.MsgPass.step_eq _ _ _ cur).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
